-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x512 : Shape := ⟨2, ![512, 512]⟩
abbrev S512 : Shape := ⟨1, ![512]⟩
abbrev S256x256 : Shape := ⟨2, ![256, 256]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S1024x512 .f32) (main_arg1 : FVec F S512x512 .f32) (main_arg2 : FVec F S512 .f32) (main_arg3 : FVec F S256x256 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S1024x512 : Shape := ⟨2, ![1024, 512]⟩
abbrev S512x512 : Shape := ⟨2, ![512, 512]⟩
abbrev S512 : Shape := ⟨1, ![512]⟩
abbrev S256x256 : Shape := ⟨2, ![256, 256]⟩
abbrev S_ : Shape := ⟨0, ![]⟩
abbrev S512x1024 : Shape := ⟨2, ![512, 1024]⟩
abbrev S512x512x256 : Shape := ⟨3, ![512, 512, 256]⟩
abbrev S64x128 : Shape := ⟨2, ![64, 128]⟩
abbrev S64x128x256 : Shape := ⟨3, ![64, 128, 256]⟩
abbrev S64x128x1 : Shape := ⟨3, ![64, 128, 1]⟩
abbrev S8192x256 : Shape := ⟨2, ![8192, 256]⟩
abbrev S1x1 : Shape := ⟨2, ![1, 1]⟩
abbrev S1x512 : Shape := ⟨2, ![1, 512]⟩
abbrev S64x256 : Shape := ⟨2, ![64, 256]⟩
abbrev S1x128 : Shape := ⟨2, ![1, 128]⟩
abbrev S256x128 : Shape := ⟨2, ![256, 128]⟩
abbrev S64x256x256 : Shape := ⟨3, ![64, 256, 256]⟩
abbrev S64x256x1 : Shape := ⟨3, ![64, 256, 1]⟩
abbrev S64x256x128 : Shape := ⟨3, ![64, 256, 128]⟩

abbrev nBuf : Space → Nat
  | .hbm => 50
  | .vmem => 15
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S256x256, .f32⟩
  | .hbm, ⟨4, _⟩ => ⟨S1024x512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .i32⟩
  | .hbm, ⟨15, _⟩ => ⟨S_, .i32⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S1024x512, .i32⟩
  | .hbm, ⟨23, _⟩ => ⟨S512x512, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S_, .i32⟩
  | .hbm, ⟨34, _⟩ => ⟨S_, .i32⟩
  | .hbm, ⟨35, _⟩ => ⟨S_, .f32⟩
  | .hbm, ⟨36, _⟩ => ⟨S512x512, .f32⟩
  | .hbm, ⟨37, _⟩ => ⟨S512x512, .f32⟩
  | .hbm, ⟨38, _⟩ => ⟨S_, .f32⟩
  | .hbm, ⟨39, _⟩ => ⟨S512x512, .f32⟩
  | .hbm, ⟨40, _⟩ => ⟨S512x512, .f32⟩
  | .hbm, ⟨41, _⟩ => ⟨S512x512, .i32⟩
  | .hbm, ⟨42, _⟩ => ⟨S512x1024, .i32⟩
  | .hbm, ⟨43, _⟩ => ⟨S512x512, .i32⟩
  | .hbm, ⟨44, _⟩ => ⟨S256x256, .f32⟩
  | .hbm, ⟨45, _⟩ => ⟨S512x512x256, .bf16⟩
  | .hbm, ⟨46, _⟩ => ⟨S_, .f32⟩
  | .hbm, ⟨47, _⟩ => ⟨S1x1, .f32⟩
  | .hbm, ⟨48, _⟩ => ⟨S1x512, .f32⟩
  | .hbm, ⟨49, _⟩ => ⟨S1024x512, .f32⟩
  | .local _ .vmem, ⟨0, _⟩ => ⟨S64x128, .i32⟩
  | .local _ .vmem, ⟨1, _⟩ => ⟨S64x128, .i32⟩
  | .local _ .vmem, ⟨2, _⟩ => ⟨S256x256, .f32⟩
  | .local _ .vmem, ⟨3, _⟩ => ⟨S64x128x256, .bf16⟩
  | .local _ .vmem, ⟨4, _⟩ => ⟨S64x128x256, .bf16⟩
  | .local _ .vmem, ⟨5, _⟩ => ⟨S64x256, .i32⟩
  | .local _ .vmem, ⟨6, _⟩ => ⟨S64x256, .i32⟩
  | .local _ .vmem, ⟨7, _⟩ => ⟨S64x128x256, .bf16⟩
  | .local _ .vmem, ⟨8, _⟩ => ⟨S64x128x256, .bf16⟩
  | .local _ .vmem, ⟨9, _⟩ => ⟨S1x1, .f32⟩
  | .local _ .vmem, ⟨10, _⟩ => ⟨S1x128, .f32⟩
  | .local _ .vmem, ⟨11, _⟩ => ⟨S1x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_c_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_cst_5 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_6 : Ref sig .tc := ⟨.hbm, 33, rfl⟩
abbrev main_c_7 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S64x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_10 : BitVec 32 := 0#32
  let v25 : BitVec 1 := Scalar.cmpi .ne v24 c0_i32_10
  v25

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S64x256 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S64x128x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  reducesTo_S1024x512_S_d0_1 : S1024x512.ReducesTo [0, 1] S_
  h_S_ : 0 < S_.numel
  bcast_S_S1024x512 : S_.BroadcastsInDim S1024x512 (![] : Fin 0 → Fin S1024x512.rank)
  reducesTo_S512x512_S_d0_1 : S512x512.ReducesTo [0, 1] S_
  bcast_S_S512x512 : S_.BroadcastsInDim S512x512 (![] : Fin 0 → Fin S512x512.rank)
  transposes_S1024x512_S512x1024_1_0 : S1024x512.Transposes [1, 0] S512x1024
  transposes_S512x512_S512x512_1_0 : S512x512.Transposes [1, 0] S512x512
  transposes_S256x256_S256x256_1_0 : S256x256.Transposes [1, 0] S256x256
  inb_S64x128_S64x128_0_0 : ∀ a, (![0, 0] : Fin 2 → Nat) a + S64x128.size a ≤ S64x128.size a
  h_S64x128 : 0 < S64x128.numel
  shapeCasts_S64x128_S64x128 : S64x128.ShapeCasts S64x128
  iota_S64x128x256_d2_w32 : S64x128x256.Iotas .tc 32 [2]
  shapeCasts_S64x128_S64x128x1 : S64x128.ShapeCasts S64x128x1
  broadcasts_S64x128x1_S64x128x256 : S64x128x1.Broadcasts S64x128x256
  natLt_1_32 : 1 < 32
  bitsLt_bf16_f32 : FTy.bits .bf16 < FTy.bits .f32
  shapeCasts_S64x128x256_S8192x256 : S64x128x256.ShapeCasts S8192x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S8192x256_S64x128x256 : S8192x256.ShapeCasts S64x128x256
  inb_S64x128x256_S64x128x256_0_0_0 : ∀ a, (![0, 0, 0] : Fin 3 → Nat) a + S64x128x256.size a ≤ S64x128x256.size a
  h_S64x128x256 : 0 < S64x128x256.numel
  packedbf16_S64x128x256_S64x128x256_0_0_0 : (Rect.unit (s := S64x128x256) ![0, 0, 0] S64x128x256.size inb_S64x128x256_S64x128x256_0_0_0).PackedRows (EltTy.packing .bf16)
  shapeCasts_S_S1x1 : S_.ShapeCasts S1x1
  shapeCasts_S512_S1x512 : S512.ShapeCasts S1x512
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S64x256_S64x256_0_0 : ∀ a, (![0, 0] : Fin 2 → Nat) a + S64x256.size a ≤ S64x256.size a
  h_S64x256 : 0 < S64x256.numel
  shapeCasts_S64x256_S64x256 : S64x256.ShapeCasts S64x256
  iota_S64x256x256_d2_w32 : S64x256x256.Iotas .tc 32 [2]
  shapeCasts_S64x256_S64x256x1 : S64x256.ShapeCasts S64x256x1
  broadcasts_S64x256x1_S64x256x256 : S64x256x1.Broadcasts S64x256x256
  shapeCasts_S64x128x256_S64x128x256 : S64x128x256.ShapeCasts S64x128x256
  reduces_S64x256x128_S256x128 : S64x256x128.Reduces [0] S256x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  dot_S8192x256_S256x256_S8192x256_1_0_0_1_n_n_wf : DotDims.WF S8192x256 S256x256 S8192x256 [1] [0] [0] [1] [] []
  dot_S64x256x256_S64x128x256_S64x256x128_2_2_1_1_0_0_wf : DotDims.WF S64x256x256 S64x128x256 S64x256x128 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S512x512.size a
  hwx0_0 : ∀ i : grid0.Coords, EltTy.bits .i32 = 32 ∨ (Rect.block (s := S512x512) S64x128.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128x256.size a ≤ S512x512x256.size a
  hwx0_2 : ∀ i : grid0.Coords, EltTy.bits .bf16 = 32 ∨ (Rect.block (s := S512x512x256) S64x128x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x256.size a ≤ S512x1024.size a
  hwx1_0 : ∀ i : grid1.Coords, EltTy.bits .i32 = 32 ∨ (Rect.block (s := S512x1024) S64x256.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x128x256.size a ≤ S512x512x256.size a
  hwx1_1 : ∀ i : grid1.Coords, EltTy.bits .bf16 = 32 ∨ (Rect.block (s := S512x512x256) S64x128x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x512.size a
  hwx1_3 : ∀ i : grid1.Coords, EltTy.bits .f32 = 32 ∨ (Rect.block (s := S1x512) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S1024x512.size a
  hwx1_4 : ∀ i : grid1.Coords, EltTy.bits .f32 = 32 ∨ (Rect.block (s := S1024x512) S256x128.size (cc1_transform_4 i) (hinb1_4 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S64x256x256_S64x128x256_S64x256x128_2_2_1_1_0_0 : DotDims S64x256x256 S64x128x256 S64x256x128 where
  lhsContracting := [2]
  rhsContracting := [2]
  lhsNonContracting := [1]
  rhsNonContracting := [1]
  lhsBatch := [0]
  rhsBatch := [0]
  wf := dot_S64x256x256_S64x128x256_S64x256x128_2_2_1_1_0_0_wf

abbrev win0_0 : Pipeline.Window sig grid0 :=
  Pipeline.Window.ofSpec (Memref.whole main_v19) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S64x128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S64x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S64x128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v25) S256x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S1024x512 : Shape := ⟨2, ![1024, 512]⟩
abbrev S512x512 : Shape := ⟨2, ![512, 512]⟩
abbrev S512 : Shape := ⟨1, ![512]⟩
abbrev S256x256 : Shape := ⟨2, ![256, 256]⟩
abbrev S_ : Shape := ⟨0, ![]⟩
abbrev S65536 : Shape := ⟨1, ![65536]⟩
abbrev S1024x1x512 : Shape := ⟨3, ![1024, 1, 512]⟩
abbrev S1x512x512 : Shape := ⟨3, ![1, 512, 512]⟩
abbrev S1024x512x512 : Shape := ⟨3, ![1024, 512, 512]⟩
abbrev S1024x512x512x1 : Shape := ⟨4, ![1024, 512, 512, 1]⟩
abbrev S1x512 : Shape := ⟨2, ![1, 512]⟩

abbrev nBuf : Space → Nat
  | .hbm => 74
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S256x256, .f32⟩
  | .hbm, ⟨4, _⟩ => ⟨S1024x512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .i32⟩
  | .hbm, ⟨15, _⟩ => ⟨S_, .i32⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S1024x512, .i32⟩
  | .hbm, ⟨23, _⟩ => ⟨S512x512, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S_, .i32⟩
  | .hbm, ⟨34, _⟩ => ⟨S_, .i32⟩
  | .hbm, ⟨35, _⟩ => ⟨S_, .f32⟩
  | .hbm, ⟨36, _⟩ => ⟨S512x512, .f32⟩
  | .hbm, ⟨37, _⟩ => ⟨S512x512, .f32⟩
  | .hbm, ⟨38, _⟩ => ⟨S_, .f32⟩
  | .hbm, ⟨39, _⟩ => ⟨S512x512, .f32⟩
  | .hbm, ⟨40, _⟩ => ⟨S512x512, .f32⟩
  | .hbm, ⟨41, _⟩ => ⟨S512x512, .i32⟩
  | .hbm, ⟨42, _⟩ => ⟨S65536, .f32⟩
  | .hbm, ⟨43, _⟩ => ⟨S1024x1x512, .i32⟩
  | .hbm, ⟨44, _⟩ => ⟨S_, .i32⟩
  | .hbm, ⟨45, _⟩ => ⟨S1024x1x512, .i32⟩
  | .hbm, ⟨46, _⟩ => ⟨S1024x1x512, .i32⟩
  | .hbm, ⟨47, _⟩ => ⟨S_, .i32⟩
  | .hbm, ⟨48, _⟩ => ⟨S1024x1x512, .i32⟩
  | .hbm, ⟨49, _⟩ => ⟨S1024x1x512, .i32⟩
  | .hbm, ⟨50, _⟩ => ⟨S1x512x512, .i32⟩
  | .hbm, ⟨51, _⟩ => ⟨S_, .i32⟩
  | .hbm, ⟨52, _⟩ => ⟨S1x512x512, .i32⟩
  | .hbm, ⟨53, _⟩ => ⟨S1x512x512, .i32⟩
  | .hbm, ⟨54, _⟩ => ⟨S1024x512x512, .i32⟩
  | .hbm, ⟨55, _⟩ => ⟨S1024x512x512, .i32⟩
  | .hbm, ⟨56, _⟩ => ⟨S1024x512x512, .i32⟩
  | .hbm, ⟨57, _⟩ => ⟨S_, .i32⟩
  | .hbm, ⟨58, _⟩ => ⟨S1024x512x512, .i32⟩
  | .hbm, ⟨59, _⟩ => ⟨S1024x512x512, .i1⟩
  | .hbm, ⟨60, _⟩ => ⟨S_, .i32⟩
  | .hbm, ⟨61, _⟩ => ⟨S1024x512x512, .i32⟩
  | .hbm, ⟨62, _⟩ => ⟨S1024x512x512, .i32⟩
  | .hbm, ⟨63, _⟩ => ⟨S1024x512x512, .i32⟩
  | .hbm, ⟨64, _⟩ => ⟨S1024x512x512x1, .i32⟩
  | .hbm, ⟨65, _⟩ => ⟨S1024x512x512, .f32⟩
  | .hbm, ⟨66, _⟩ => ⟨S_, .f32⟩
  | .hbm, ⟨67, _⟩ => ⟨S1024x512, .f32⟩
  | .hbm, ⟨68, _⟩ => ⟨S_, .f32⟩
  | .hbm, ⟨69, _⟩ => ⟨S1024x512, .f32⟩
  | .hbm, ⟨70, _⟩ => ⟨S1024x512, .f32⟩
  | .hbm, ⟨71, _⟩ => ⟨S1x512, .f32⟩
  | .hbm, ⟨72, _⟩ => ⟨S1024x512, .f32⟩
  | .hbm, ⟨73, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_c_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_cst_5 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_6 : Ref sig .tc := ⟨.hbm, 33, rfl⟩
abbrev main_c_7 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_8 : Ref sig .tc := ⟨.hbm, 44, rfl⟩
abbrev main_v20 : Ref sig .tc := ⟨.hbm, 45, rfl⟩
abbrev main_v21 : Ref sig .tc := ⟨.hbm, 46, rfl⟩
abbrev main_c_9 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_10 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_11 : Ref sig .tc := ⟨.hbm, 57, rfl⟩
abbrev main_v30 : Ref sig .tc := ⟨.hbm, 58, rfl⟩
abbrev main_v31 : Ref sig .tc := ⟨.hbm, 59, rfl⟩
abbrev main_c_12 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_13 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩

abbrev nD : Nat := 1
abbrev τ : Topo := Topo.v7x

variable {F : FTy → Type} [FloatOps F]

class Facts₀ : Prop where
  reducesTo_S1024x512_S_d0_1 : S1024x512.ReducesTo [0, 1] S_
  h_S_ : 0 < S_.numel
  bcast_S_S1024x512 : S_.BroadcastsInDim S1024x512 (![] : Fin 0 → Fin S1024x512.rank)
  reducesTo_S512x512_S_d0_1 : S512x512.ReducesTo [0, 1] S_
  bcast_S_S512x512 : S_.BroadcastsInDim S512x512 (![] : Fin 0 → Fin S512x512.rank)
  shapeCasts_S256x256_S65536 : S256x256.ShapeCasts S65536
  bcast_S1024x512_S1024x1x512_0_2 : S1024x512.BroadcastsInDim S1024x1x512 (![0, 2] : Fin 2 → Fin S1024x1x512.rank)
  bcast_S_S1024x1x512 : S_.BroadcastsInDim S1024x1x512 (![] : Fin 0 → Fin S1024x1x512.rank)
  bcast_S512x512_S1x512x512_1_2 : S512x512.BroadcastsInDim S1x512x512 (![1, 2] : Fin 2 → Fin S1x512x512.rank)
  bcast_S_S1x512x512 : S_.BroadcastsInDim S1x512x512 (![] : Fin 0 → Fin S1x512x512.rank)
  bcast_S1024x1x512_S1024x512x512_0_1_2 : S1024x1x512.BroadcastsInDim S1024x512x512 (![0, 1, 2] : Fin 3 → Fin S1024x512x512.rank)
  bcast_S1x512x512_S1024x512x512_0_1_2 : S1x512x512.BroadcastsInDim S1024x512x512 (![0, 1, 2] : Fin 3 → Fin S1024x512x512.rank)
  bcast_S_S1024x512x512 : S_.BroadcastsInDim S1024x512x512 (![] : Fin 0 → Fin S1024x512x512.rank)
  bcast_S1024x512x512_S1024x512x512x1_0_1_2 : S1024x512x512.BroadcastsInDim S1024x512x512x1 (![0, 1, 2] : Fin 3 → Fin S1024x512x512x1.rank)
  reducesTo_S1024x512x512_S1024x512_d2 : S1024x512x512.ReducesTo [2] S1024x512
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  gather_S65536_S1024x512x512x1_S1024x512x512_n_0_n_n_0_3_1_wf : GatherDims.WF S65536 S1024x512x512x1 S1024x512x512 [] [0] [] [0] [] 3 ![1]

variable [Facts₀]

def gather_S65536_S1024x512x512x1_S1024x512x512_n_0_n_n_0_3_1 : GatherDims S65536 S1024x512x512x1 S1024x512x512 where
  offsetDims := []
  collapsedSliceDims := [0]
  operandBatchingDims := []
  startIndicesBatchingDims := []
  startIndexMap := [0]
  indexVectorDim := 3
  sliceSizes := ![1]
  wf := gather_S65536_S1024x512x512x1_S1024x512x512_n_0_n_n_0_3_1_wf

class Facts : Prop extends Facts₀ where

variable [Facts]
-- ==== Proof.K.Reg0.lean ====
/-
  The first kernel region: the table of looked-up products.

  At grid point (i, j) the body reads a 64 × 128 block of quantised weights and the whole 256 × 256 table, and stores ONE
  64 × 128 × 256 block — each weight's row of the table — into the output's staging buffer, which it covers. So after the body
  the output buffer is a function of the two input blocks alone, the inputs are untouched, nothing is kept between points.
  Everything is stated at a parameter `V`, the contents of the core's buffers when the region is entered.
-/
import proofs.«143824_j5239860101336_1_alg».proof.Proof.Gen.Kernel.Launch
import proofs.«143824_j5239860101336_1_alg».proof.Proof.Gen.Kernel.Skeleton
import proofs.«143824_j5239860101336_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's three rectangles: each is its whole buffer. -/
abbrev rW : Rect S64x128 := Rect.unit (s := S64x128) ![0, 0] S64x128.size inb_S64x128_S64x128_0_0
abbrev rL : Rect S256x256 := Rect.unit (s := S256x256) ![0, 0] S256x256.size inb_S256x256_S256x256_0_0
abbrev rH : Rect S64x128x256 := Rect.unit (s := S64x128x256) ![0, 0, 0] S64x128x256.size inb_S64x128x256_S64x128x256_0_0_0

/-- The output's staging buffer after the body, from the two input blocks: its one store. -/
def out0_2 (x0 : Vec F S64x128 .i32) (x1 : Vec F S256x256 .f32) : Vec F S64x128x256 .bf16 :=
  View.canon [⟨rH, k0_pay1 (View.ld x0 rW) (View.ld x1 rL)⟩]

/-- The store covers the buffer. -/
theorem cover0_2 (p0 : Vec F S64x128x256 .bf16) (y : S64x128x256.Idx) :
    ∃ pc ∈ ([⟨rH, p0⟩] : List (View.Piece (Elt F) S64x128x256 .bf16)), y ∈ pc.1.set :=
  View.cover_of_tiled [⟨rH, p0⟩] S64x128x256.size (by rfl) y

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg2 : Memref sig .tc .vmem S64x128 .i32) (harg2 : arg2.IsWhole)
    (arg3 : Memref sig .tc .vmem S256x256 .f32) (harg3 : arg3.IsWhole) (arg4 : Memref sig .tc .vmem S64x128x256 .bf16) (harg4 : arg4.IsWhole)
    (x0 : Vec F S64x128 .i32) (x1 : Vec F S256x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__h_kernel i arg2 harg2 arg3 harg3 arg4 harg4) K := by
  simp only [cc0__h_kernel_eq_skeleton]; unfold cc0__h_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as the region finds them; after the body each input's
    buffer at its block and the output's at `out0_2` of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  The second kernel region: the looked-up products summed along the contracted axis.

  The grid is 4 × 4 × 8; the last coordinate k walks the 8 blocks of 64 contracted positions. A 256 × 128 scratch carries the
  running sum between points: at k = 0 the body first sets it to zero; at every point it adds the block's contribution; at k = 7
  it also stores scratch · scale + bias into the output's staging buffer, which is written back at those points only and left
  alone at the others. So after point t the scratch holds the sum over the blocks 0 … k of t's column, a function of the input
  blocks met so far (`accAt`), and the invariant between points names it.
  Everything is stated at a parameter `V`, the contents of the core's buffers when the region is entered.
-/
import proofs.«143824_j5239860101336_1_alg».proof.Proof.K.Reg0
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- "k = 0": the scratch is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "k = 7": the output block is stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from k = 7 the output window is idle and not written back; at k = 7 it is live. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The body on whole memrefs, case by case -/

theorem hz2 : (![0, 0] : Fin 2 → Nat) = fun _ => 0 := funext fun a => by fin_cases a <;> rfl
theorem hz3 : (![0, 0, 0] : Fin 3 → Nat) = fun _ => 0 := funext fun a => by fin_cases a <;> rfl

abbrev rS : Rect S256x128 := Rect.unit (s := S256x128) ![0, 0] S256x128.size inb_S256x128_S256x128_0_0

/-- A list of stores into a 256 × 128 buffer whose last store is the whole buffer covers it. -/
theorem coverS (p0 : Vec F S256x128 .f32) (L : List (View.Piece (Elt F) S256x128 .f32)) (y : S256x128.Idx) :
    ∃ pc ∈ ((⟨rS, p0⟩ : View.Piece (Elt F) S256x128 .f32) :: L), y ∈ pc.1.set := by
  obtain ⟨pc, hpc, hy⟩ := View.cover_of_tiled [(⟨rS, p0⟩ : View.Piece (Elt F) S256x128 .f32)] S256x128.size (by rfl) y
  rw [List.mem_singleton] at hpc; subst hpc
  exact ⟨_, List.mem_cons_self, hy⟩

/-- The scratch operand: a whole scoped buffer of the kernel's own. -/
abbrev scM : Memref sig .tc .vmem S256x128 .f32 := Memref.whole cc1_scratch0

set_option maxHeartbeats 2000000 in
/-- k = 0: the scratch, at anything, is zeroed and the block's contribution added. -/
theorem sound_kernel1_A (c : Dev nD) (E : Set ℕ) (i : grid1.Coords)
    (arg3 : Memref sig .tc .vmem S64x256 .i32) (harg3 : arg3.IsWhole) (arg4 : Memref sig .tc .vmem S64x128x256 .bf16) (harg4 : arg4.IsWhole)
    (arg5 : Memref sig .tc .vmem S1x1 .f32) (harg5 : arg5.IsWhole) (arg6 : Memref sig .tc .vmem S1x128 .f32) (harg6 : arg6.IsWhole)
    (arg7 : Memref sig .tc .vmem S256x128 .f32) (harg7 : arg7.IsWhole) (arg8 : Memref sig .tc .vmem S256x128 .f32) (harg8 : arg8.IsWhole)
    (hc0 : cond1_0 i) (hc1 : ¬cond1_1 i)
    (x0 : Vec F S64x256 .i32) (x1 : Vec F S64x128x256 .bf16) (K : PUnit → sProp 𝕄) :
    iprop(owns (c : Thread nD τ) arg3 fullShare x0 ∗ owns (c : Thread nD τ) arg4 fullShare x1 ∗ (∃ d, owns (c : Thread nD τ) arg8 fullShare d)
        ∗ (iprop(owns (c : Thread nD τ) arg3 fullShare x0 ∗ owns (c : Thread nD τ) arg4 fullShare x1
            ∗ owns (c : Thread nD τ) arg8 fullShare (k1_pay2 x0 x1 k1_pay1)) -∗ K ⟨⟩))
      ⊢ wp frame (wpE (defs₀ (F := F)) Variants.none c none) E (cc1__mm_kernel i arg3 harg3 arg4 harg4 arg5 harg5 arg6 harg6 arg7 harg7 arg8 harg8) K := by
  simp only [cc1__mm_kernel_eq_skeleton]; unfold cc1__mm_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (coverS _ _), View.canon_cons_unit_zero hz2]
  simp only [View.readAt_eq_ld, View.ld_unit_zero (S := S64x256) hz2, View.ld_unit_zero (S := S64x128x256) hz3,
    View.readCov_unit_zero (S := S256x128) _ hz2]

set_option maxHeartbeats 2000000 in
/-- 0 < k < 7: the block's contribution is added to the scratch. -/
theorem sound_kernel1_B (c : Dev nD) (E : Set ℕ) (i : grid1.Coords)
    (arg3 : Memref sig .tc .vmem S64x256 .i32) (harg3 : arg3.IsWhole) (arg4 : Memref sig .tc .vmem S64x128x256 .bf16) (harg4 : arg4.IsWhole)
    (arg5 : Memref sig .tc .vmem S1x1 .f32) (harg5 : arg5.IsWhole) (arg6 : Memref sig .tc .vmem S1x128 .f32) (harg6 : arg6.IsWhole)
    (arg7 : Memref sig .tc .vmem S256x128 .f32) (harg7 : arg7.IsWhole) (arg8 : Memref sig .tc .vmem S256x128 .f32) (harg8 : arg8.IsWhole)
    (hc0 : ¬cond1_0 i) (hc1 : ¬cond1_1 i)
    (x0 : Vec F S64x256 .i32) (x1 : Vec F S64x128x256 .bf16) (xs : Vec F S256x128 .f32) (K : PUnit → sProp 𝕄) :
    iprop(owns (c : Thread nD τ) arg3 fullShare x0 ∗ owns (c : Thread nD τ) arg4 fullShare x1 ∗ owns (c : Thread nD τ) arg8 fullShare xs
        ∗ (iprop(owns (c : Thread nD τ) arg3 fullShare x0 ∗ owns (c : Thread nD τ) arg4 fullShare x1
            ∗ owns (c : Thread nD τ) arg8 fullShare (k1_pay2 x0 x1 xs)) -∗ K ⟨⟩))
      ⊢ wp frame (wpE (defs₀ (F := F)) Variants.none c none) E (cc1__mm_kernel i arg3 harg3 arg4 harg4 arg5 harg5 arg6 harg6 arg7 harg7 arg8 harg8) K := by
  simp only [cc1__mm_kernel_eq_skeleton]; unfold cc1__mm_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (coverS _ _), View.canon_cons_unit_zero hz2]
  simp only [View.readAt_eq_ld, View.ld_unit_zero (S := S64x256) hz2, View.ld_unit_zero (S := S64x128x256) hz3,
    View.ld_unit_zero (S := S256x128) hz2]

set_option maxHeartbeats 2000000 in
/-- k = 7: the block's contribution is added, and the output buffer, at anything, receives scratch · scale + bias. -/
theorem sound_kernel1_C (c : Dev nD) (E : Set ℕ) (i : grid1.Coords)
    (arg3 : Memref sig .tc .vmem S64x256 .i32) (harg3 : arg3.IsWhole) (arg4 : Memref sig .tc .vmem S64x128x256 .bf16) (harg4 : arg4.IsWhole)
    (arg5 : Memref sig .tc .vmem S1x1 .f32) (harg5 : arg5.IsWhole) (arg6 : Memref sig .tc .vmem S1x128 .f32) (harg6 : arg6.IsWhole)
    (arg7 : Memref sig .tc .vmem S256x128 .f32) (harg7 : arg7.IsWhole) (arg8 : Memref sig .tc .vmem S256x128 .f32) (harg8 : arg8.IsWhole)
    (hc0 : ¬cond1_0 i) (hc1 : cond1_1 i)
    (x0 : Vec F S64x256 .i32) (x1 : Vec F S64x128x256 .bf16) (x2 : Vec F S1x1 .f32) (x3 : Vec F S1x128 .f32) (xs : Vec F S256x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k1_pay3 x2 (k1_pay2 x0 x1 xs) x3)
            ∗ owns (c : Thread nD τ) arg8 fullShare (k1_pay2 x0 x1 xs)) -∗ K ⟨⟩))
      ⊢ wp frame (wpE (defs₀ (F := F)) Variants.none c none) E (cc1__mm_kernel i arg3 harg3 arg4 harg4 arg5 harg5 arg6 harg6 arg7 harg7 arg8 harg8) K := by
  simp only [cc1__mm_kernel_eq_skeleton]; unfold cc1__mm_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (coverS _ _), View.canon_cons_unit_zero hz2]
    simp only [View.readAt_eq_ld, View.ld_unit_zero (S := S64x256) hz2, View.ld_unit_zero (S := S64x128x256) hz3,
      View.ld_unit_zero (S := S256x128) hz2, View.ld_unit_zero (S := S1x1) hz2, View.ld_unit_zero (S := S1x128) hz2,
      View.readCov_unit_zero (S := S256x128) _ hz2]
  iexists _; isplitr
  swap; · iexact HS
  ipureintro
  sl_unfold_run_names
  rw [View.read_writes_eq_canon _ _ _ (coverS _ _), View.canon_cons_unit_zero hz2]
  simp only [View.readAt_eq_ld, View.ld_unit_zero (S := S64x256) hz2, View.ld_unit_zero (S := S64x128x256) hz3,
    View.ld_unit_zero (S := S256x128) hz2]

/-! ## What the scratch holds after each point -/

/-- The scratch after point `n`: at the first point of a column the block's contribution added to zero, afterwards added to
    what the point before left. -/
def accAt (c : Dev nD) : (n : ℕ) → n < cfg1.N → Vec F S256x128 .f32
  | 0, hn => k1_pay2 (iblk1 V c 0 ⟨0, hn⟩) (iblk1 V c 1 ⟨0, hn⟩) k1_pay1
  | n + 1, hn =>
    if (n + 1) % 8 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (accAt c n (Nat.lt_of_succ_lt hn))

theorem accAt_reset (c : Dev nD) (t : Fin cfg1.N) (h0 : t.val % 8 = 0) :
    accAt V c t.val t.isLt = k1_pay2 (iblk1 V c 0 t) (iblk1 V c 1 t) k1_pay1 := by
  obtain ⟨n, hn⟩ := t
  cases n with
  | zero => rfl
  | succ n => exact if_pos h0

theorem accAt_step (c : Dev nD) (t : Fin cfg1.N) (h0 : ¬t.val % 8 = 0) :
    accAt V c t.val t.isLt = k1_pay2 (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- The scoped buffers that are no staging buffer of this region, but for the scratch: each whole at some contents. -/
def rest5 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region's plain invariant opened: those buffers, the scratch at some contents, the generator register. -/
theorem PhiA_open (c : Dev nD) :
    (Pipeline.ΦA spec1 c : sProp 𝕄) ⊢ iprop(rest5 c ∗ (∃ d, owns (c : Thread nD τ) scM fullShare d) ∗ (∃ r, prngReg c r)) := by
  unfold Pipeline.ΦA rest5; rw [scopedRest1_eq]; simp only [owns_whole]
  iintro ⟨⟨Ha, Hb, Hc, Hd, He, HS⟩, Hg⟩
  isplitl [Ha Hb Hc Hd He]
  · isplitl [Ha]; · iexact Ha
    isplitl [Hb]; · iexact Hb
    isplitl [Hc]; · iexact Hc
    isplitl [Hd]; · iexact Hd
    iexact He
  isplitl [HS]; · iexact HS
  iexact Hg

/-- and closed again. -/
theorem PhiA_close (c : Dev nD) :
    iprop(rest5 c ∗ (∃ d, owns (c : Thread nD τ) scM fullShare d) ∗ (∃ r, prngReg c r)) ⊢ (Pipeline.ΦA spec1 c : sProp 𝕄) := by
  unfold Pipeline.ΦA rest5; rw [scopedRest1_eq]; simp only [owns_whole]
  iintro ⟨⟨Ha, Hb, Hc, Hd, He⟩, HS, Hg⟩
  isplitr [Hg]
  · isplitl [Ha]; · iexact Ha
    isplitl [Hb]; · iexact Hb
    isplitl [Hc]; · iexact Hc
    isplitl [Hd]; · iexact Hd
    isplitl [He]; · iexact He
    iexact HS
  iexact Hg

/-- The invariant before position `n`: before the first point the region's plain one (the scratch at anything); afterwards
    the scratch at what the point before left in it. -/
def PhiS (c : Dev nD) : (n : ℕ) → n ≤ cfg1.N → sProp 𝕄
  | 0, _ => Pipeline.ΦA spec1 c
  | n + 1, hn => iprop(rest5 c ∗ owns (c : Thread nD τ) scM fullShare (accAt V c n hn) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest5 c ∗ owns (c : Thread nD τ) scM fullShare (accAt V c n hn) ∗ (∃ r, prngReg c r)) := rfl

theorem PhiS_pos (c : Dev nD) (n : ℕ) (h : n ≤ cfg1.N) (hz : n ≠ 0) :
    PhiS V c n h = iprop(rest5 c ∗ owns (c : Thread nD τ) scM fullShare (accAt V c (n - 1) (by omega)) ∗ (∃ r, prngReg c r)) := by
  cases n with
  | zero => exact absurd rfl hz
  | succ n => rfl

/-! ## The proof data -/

/-- The proof data of the second pipeline on core `c`: the arrays as the region finds them; after the body each input's buffer
    at its block, the output's at scratch · scale + bias of the point's blocks and scratch; the invariant `PhiS`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (iblk1 V c 2 t) (accAt V c t.val t.isLt) (iblk1 V c 3 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay3 (iblk1 V c 2 t) (accAt V c t.val t.isLt) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the position of the point in its column says which case it
    is in; the invariant hands the body the scratch at what the point before left (at anything at the very first point) and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  by_cases h0 : t.val % 8 = 0
  · have h1 : ¬t.val % 8 = 7 := by omega
    rw [Dat.leavesExact_idle (dat1 V c) 4 t (idleAt1_4 t (fun h => h1 ((hcond1_1 t).mp h))) (noFlush1_4 t (fun h => h1 ((hcond1_1 t).mp h)))]
    rw [accAt_reset V c t h0]
    have hrun := sound_kernel1_A (F := F) c Set.univ (grid1.coords t) (st1_0 t) (hstage1_0 ((cfg1.slots t 0).cast nbuf1_0))
      (st1_1 t) (hstage1_1 ((cfg1.slots t 1).cast nbuf1_1)) (st1_2 t) (hstage1_2 ((cfg1.slots t 2).cast nbuf1_2))
      (st1_3 t) (hstage1_3 ((cfg1.slots t 3).cast nbuf1_3)) (st1_4 t) (hstage1_4 ((cfg1.slots t 4).cast nbuf1_4))
      (Memref.whole cc1_scratch0) (Memref.isWhole_whole _) ((hcond1_0 t).mpr h0) (fun h => h1 ((hcond1_1 t).mp h))
      (iblk1 V c 0 t) (iblk1 V c 1 t)
    by_cases hz : t.val = 0
    · rw [PhiS_castSucc V c t, PhiS_zero V c _ _ hz]
      iintro ⟨Hphi, Ho, ⟨%d0, H0⟩, ⟨%d1, H1⟩, ⟨%d2, H2⟩, ⟨%d3, H3⟩, H4⟩
      ihave Hopen := PhiA_open c $$ Hphi
      icases Hopen with ⟨Hr, HS, Hg⟩
      iapply (hrun _)
      isplitl [H0]; · iexact H0
      isplitl [H1]; · iexact H1
      isplitl [HS]; · iexact HS
      iintro ⟨H0, H1, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexact H4
    · rw [PhiS_castSucc V c t, PhiS_pos V c _ _ hz]
      iintro ⟨⟨Hr, HS, Hg⟩, Ho, ⟨%d0, H0⟩, ⟨%d1, H1⟩, ⟨%d2, H2⟩, ⟨%d3, H3⟩, H4⟩
      iapply (hrun _)
      isplitl [H0]; · iexact H0
      isplitl [H1]; · iexact H1
      isplitl [HS]; · iexists _; iexact HS
      iintro ⟨H0, H1, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexact H4
  · have hz : t.val ≠ 0 := fun h => h0 (by rw [h])
    rw [accAt_step V c t h0]
    rw [PhiS_castSucc V c t, PhiS_pos V c _ _ hz]
    by_cases h1 : t.val % 8 = 7
    · rw [show (dat1 V c).leavesExact 4 t = owns (c : Thread nD τ) (st1_4 t) fullShare ((dat1 V c).after 4 t) from by
        unfold Dat.leavesExact; rw [liveAt1_4 t ((hcond1_1 t).mpr h1)], after1_4, accAt_step V c t h0]
      iintro ⟨⟨Hr, HS, Hg⟩, Ho, ⟨%d0, H0⟩, ⟨%d1, H1⟩, ⟨%d2, H2⟩, ⟨%d3, H3⟩, ⟨%d4, H4⟩⟩
      iapply (sound_kernel1_C (F := F) c Set.univ (grid1.coords t) (st1_0 t) (hstage1_0 ((cfg1.slots t 0).cast nbuf1_0))
        (st1_1 t) (hstage1_1 ((cfg1.slots t 1).cast nbuf1_1)) (st1_2 t) (hstage1_2 ((cfg1.slots t 2).cast nbuf1_2))
        (st1_3 t) (hstage1_3 ((cfg1.slots t 3).cast nbuf1_3)) (st1_4 t) (hstage1_4 ((cfg1.slots t 4).cast nbuf1_4))
        (Memref.whole cc1_scratch0) (Memref.isWhole_whole _) (fun h => h0 ((hcond1_0 t).mp h)) ((hcond1_1 t).mpr h1)
        (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t (fun h => h1 ((hcond1_1 t).mp h))) (noFlush1_4 t (fun h => h1 ((hcond1_1 t).mp h)))]
      iintro ⟨⟨Hr, HS, Hg⟩, Ho, ⟨%d0, H0⟩, ⟨%d1, H1⟩, ⟨%d2, H2⟩, ⟨%d3, H3⟩, H4⟩
      iapply (sound_kernel1_B (F := F) c Set.univ (grid1.coords t) (st1_0 t) (hstage1_0 ((cfg1.slots t 0).cast nbuf1_0))
        (st1_1 t) (hstage1_1 ((cfg1.slots t 1).cast nbuf1_1)) (st1_2 t) (hstage1_2 ((cfg1.slots t 2).cast nbuf1_2))
        (st1_3 t) (hstage1_3 ((cfg1.slots t 3).cast nbuf1_3)) (st1_4 t) (hstage1_4 ((cfg1.slots t 4).cast nbuf1_4))
        (Memref.whole cc1_scratch0) (Memref.isWhole_whole _) (fun h => h0 ((hcond1_0 t).mp h)) (fun h => h1 ((hcond1_1 t).mp h))
        (iblk1 V c 0 t) (iblk1 V c 1 t) _ _)
      isplitl [H0]; · iexact H0
      isplitl [H1]; · iexact H1
      isplitl [HS]; · iexact HS
      iintro ⟨H0, H1, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexact H4

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the plain one back: the scratch's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  iintro ⟨Hr, HS, Hg⟩
  iapply (PhiA_close c)
  isplitl [Hr]; · iexact Hr
  isplitl [HS]; · iexists _; iexact HS
  iexact Hg

end Cert.Kernel.Hand

end
-- ==== Proof.K.Run.lean ====
/-
  The program's run. @main is a list of host stretches and the two kernel regions; the host side and the chaining are the
  generated conditional frame's, and this module supplies what it asks for: each region as a segment — entered from every
  unscoped buffer at the contents the lines before it leave, left with the region's arrays at what its write-backs leave and
  every other buffer as entered, the generator register at some state and nothing owed riding along.
  The contents a region leaves in its output array are named: the first region's table `(dat0 …).arrAt 2 N`, the second's
  result `(dat1 …).arrAt 4 N`, each the fold of its blocks' write-backs.
-/
import proofs.«143824_j5239860101336_1_alg».proof.Proof.K.Reg1
import proofs.«143824_j5239860101336_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the regions' boundaries -/

/-- The first region's entry contents, read at the core's references. -/
abbrev VA : (c : Dev nD) → (b : Ref sig .tc) → Buf (Elt F) ((c : Thread nD τ).loc b) := fun c b => V9 m c b
/-- At the first region's exit: its arrays at what the pipeline leaves, every other buffer as entered. -/
def WA (c : Dev nD) : Valuation τ sig (Elt F) :=
  Pipeline.withArrays spec0 c (V9 m c) fun w => (dat0 (VA m) c).arrAt w cfg0.N
theorem WA_arr (c : Dev nD) (w : Fin cfg0.W) :
    WA m c (Proc.devRef .tc (Pipeline.arrRef spec0 w)) = (dat0 (VA m) c).arrAt w cfg0.N := by
  unfold WA; exact Pipeline.withArrays_arr spec0 launch0.win.arr_inj c _ _ w
/-- What the first region leaves, as the conditional frame's unknowns. -/
def outsA : Outs (F := F) := fun _ r c => WA m c r
/-- The second region's entry contents. -/
abbrev VB : (c : Dev nD) → (b : Ref sig .tc) → Buf (Elt F) ((c : Thread nD τ).loc b) := fun c b => V11 m (outsA m) c b
/-- At the second region's exit. -/
def WB (c : Dev nD) : Valuation τ sig (Elt F) :=
  Pipeline.withArrays spec1 c (V11 m (outsA m) c) fun w => (dat1 (VB m) c).arrAt w cfg1.N
theorem WB_arr (c : Dev nD) (w : Fin cfg1.W) :
    WB m c (Proc.devRef .tc (Pipeline.arrRef spec1 w)) = (dat1 (VB m) c).arrAt w cfg1.N := by
  unfold WB; exact Pipeline.withArrays_arr spec1 launch1.win.arr_inj c _ _ w
/-- What the two regions leave: after item 9 the first region's exit contents, after item 11 the second's. -/
def outs : Outs (F := F) := fun n r c => if n = 10 then WA m c r else WB m c r

theorem outs_10 (c : Dev nD) : outs m 10 main_v21 c = WA m c main_v21 := if_pos rfl
theorem outs_12 (c : Dev nD) : outs m 12 main_v25 c = WB m c main_v25 := if_neg (by decide)

theorem V10_eq (c : Dev nD) : V10 m (outs m) c = V10 m (outsA m) c := by
  show Function.update (V9 m c) (Proc.devRef .tc main_v21) (outs m 10 main_v21 c) = Function.update (V9 m c) (Proc.devRef .tc main_v21) (outsA m 10 main_v21 c)
  rw [outs_10]; rfl
theorem V11_eq (c : Dev nD) : V11 m (outs m) c = V11 m (outsA m) c :=
  congrArg (StableHlo.after hostOps1) (V10_eq m c)

/-- The first region's exit contents at the core's references. -/
abbrev XA : (c : Dev nD) → (b : Ref sig .tc) → Buf (Elt F) ((c : Thread nD τ).loc b) := fun c b => V10 m (outs m) c b
/-- The second region's. -/
abbrev XB : (c : Dev nD) → (b : Ref sig .tc) → Buf (Elt F) ((c : Thread nD τ).loc b) := fun c b => V12 m (outs m) c b

theorem XA_out (c : Dev nD) : XA m c main_v21 = (dat0 (VA m) c).arrAt 2 cfg0.N := by
  show Function.update (V9 m c) (Proc.devRef .tc main_v21) (outs m 10 main_v21 c) (Proc.devRef .tc main_v21) = _
  rw [Function.update_self, outs_10]; exact WA_arr m c 2
theorem XB_out (c : Dev nD) : XB m c main_v25 = (dat1 (VB m) c).arrAt 4 cfg1.N := by
  show Function.update (V11 m (outs m) c) (Proc.devRef .tc main_v25) (outs m 12 main_v25 c) (Proc.devRef .tc main_v25) = _
  rw [Function.update_self, outs_12]; exact WB_arr m c 4

theorem hF0 (c : Dev nD) (w : Fin cfg0.W) : (dat0 (VA m) c).arrAt w cfg0.N = XA m c (Pipeline.arrRef spec0 w) := by
  match w with
  | ⟨0, _⟩ => exact (((dat0 (VA m) c).arrAt_in 0 rfl _).trans (A_eq0 (VA m) c 0)).trans (V10_of m (outs m) c main_v19 (by decide)).symm
  | ⟨1, _⟩ => exact (((dat0 (VA m) c).arrAt_in 1 rfl _).trans (A_eq0 (VA m) c 1)).trans (V10_of m (outs m) c main_v20 (by decide)).symm
  | ⟨2, _⟩ => exact (XA_out m c).symm
theorem hrest0 (c : Dev nD) : ∀ b, b ∉ Finset.univ.image (Pipeline.arrRef spec0) → XA m c b = VA m c b := fun b hb =>
  V10_of m (outs m) c b (fun h => hb (Finset.mem_image.mpr ⟨2, Finset.mem_univ _, (List.mem_singleton.mp h).symm⟩))

theorem hF1_in (c : Dev nD) (w : Fin cfg1.W) (hw : (cfg1.win w).isOut = false) (r : Ref sig .tc) (hr : Pipeline.arrRef spec1 w = r)
    (hne : r ∉ ([main_v25] : List (Ref sig .tc))) : (dat1 (VB m) c).arrAt w cfg1.N = XB m c (Pipeline.arrRef spec1 w) := by
  subst hr
  exact (((dat1 (VB m) c).arrAt_in w hw _).trans (A_eq1 (VB m) c w)).trans ((V12_of m (outs m) c _ hne).trans (congrFun (V11_eq m c) _)).symm
theorem hF1 (c : Dev nD) (w : Fin cfg1.W) : (dat1 (VB m) c).arrAt w cfg1.N = XB m c (Pipeline.arrRef spec1 w) := by
  match w with
  | ⟨0, _⟩ => exact hF1_in m c 0 rfl main_v18 rfl (by decide)
  | ⟨1, _⟩ => exact hF1_in m c 1 rfl main_v21 rfl (by decide)
  | ⟨2, _⟩ => exact hF1_in m c 2 rfl main_v23 rfl (by decide)
  | ⟨3, _⟩ => exact hF1_in m c 3 rfl main_v24 rfl (by decide)
  | ⟨4, _⟩ => exact (XB_out m c).symm
theorem hrest1 (c : Dev nD) : ∀ b, b ∉ Finset.univ.image (Pipeline.arrRef spec1) → XB m c b = VB m c b := fun b hb =>
  (V12_of m (outs m) c b (fun h => hb (Finset.mem_image.mpr ⟨4, Finset.mem_univ _, (List.mem_singleton.mp h).symm⟩))).trans
    (congrFun (V11_eq m c) _)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

set_option backward.isDefEq.respectTransparency.types false in
/-- The first region as a segment. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (V9 m c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (XA m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region as a segment: the generator register and the scoped rest enter the tracked invariant, which gives them
    back after the last point with the scratch's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (V11 m (outsA m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VB m) c)
    unfold Pipeline.ΦA
    iintro ⟨Hp, -, Hr⟩
    isplitl [Hr]; · iexact Hr
    iexact Hp
  hout c := by
    rw [Pipeline.ownSems0_none]
    refine BIBase.Entails.trans (hout1 (VB m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (XB m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch's ghost state: the cells and tokens of the two pipelines, nothing else. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the first thread state's rest. -/
theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME: every weakly fair execution of @main terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m emb₁ () 𝒱₀ L lv (fun _ _ => rfl) ρ (outs m) (pdats m) 0 (fun _ => iprop(emp))
    (initOf (Pipeline.cells cfgs cellOf_inj) (Pipeline.launchToks cfgs cellOf_inj)) hu₀
    (fun _ c => R c) (hE0 ρ) (fun c => by iintro ⟨-, HO⟩; iexact HO)
    (reg0 m) (fun c => .rfl) (fun c => .rfl)
    (reg1 m) (fun c => by rw [V11_eq]; exact .rfl) (fun c => .rfl)

end Cert.Kernel.Hand

end
-- ==== Proof.KI.Reg0.lean ====
/-
  The first kernel region: the table of looked-up products.

  At grid point (i, j) the body reads a 64 × 128 block of quantised weights and the whole 256 × 256 table, and stores ONE
  64 × 128 × 256 block — each weight's row of the table — into the output's staging buffer, which it covers. So after the body
  the output buffer is a function of the two input blocks alone, the inputs are untouched, nothing is kept between points.
  Everything is stated at a parameter `V`, the contents of the core's buffers when the region is entered.
-/
import proofs.«143824_j5239860101336_1_alg».proof.Proof.Gen.KernelIdeal.Launch
import proofs.«143824_j5239860101336_1_alg».proof.Proof.Gen.KernelIdeal.Skeleton
import proofs.«143824_j5239860101336_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's three rectangles: each is its whole buffer. -/
abbrev rW : Rect S64x128 := Rect.unit (s := S64x128) ![0, 0] S64x128.size inb_S64x128_S64x128_0_0
abbrev rL : Rect S256x256 := Rect.unit (s := S256x256) ![0, 0] S256x256.size inb_S256x256_S256x256_0_0
abbrev rH : Rect S64x128x256 := Rect.unit (s := S64x128x256) ![0, 0, 0] S64x128x256.size inb_S64x128x256_S64x128x256_0_0_0

/-- The output's staging buffer after the body, from the two input blocks: its one store. -/
def out0_2 (x0 : Vec F S64x128 .i32) (x1 : Vec F S256x256 .f32) : Vec F S64x128x256 .bf16 :=
  View.canon [⟨rH, k0_pay1 (View.ld x0 rW) (View.ld x1 rL)⟩]

/-- The store covers the buffer. -/
theorem cover0_2 (p0 : Vec F S64x128x256 .bf16) (y : S64x128x256.Idx) :
    ∃ pc ∈ ([⟨rH, p0⟩] : List (View.Piece (Elt F) S64x128x256 .bf16)), y ∈ pc.1.set :=
  View.cover_of_tiled [⟨rH, p0⟩] S64x128x256.size (by rfl) y

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg2 : Memref sig .tc .vmem S64x128 .i32) (harg2 : arg2.IsWhole)
    (arg3 : Memref sig .tc .vmem S256x256 .f32) (harg3 : arg3.IsWhole) (arg4 : Memref sig .tc .vmem S64x128x256 .bf16) (harg4 : arg4.IsWhole)
    (x0 : Vec F S64x128 .i32) (x1 : Vec F S256x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__h_kernel i arg2 harg2 arg3 harg3 arg4 harg4) K := by
  simp only [cc0__h_kernel_eq_skeleton]; unfold cc0__h_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as the region finds them; after the body each input's
    buffer at its block and the output's at `out0_2` of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The second kernel region: the looked-up products summed along the contracted axis.

  The grid is 4 × 4 × 8; the last coordinate k walks the 8 blocks of 64 contracted positions. A 256 × 128 scratch carries the
  running sum between points: at k = 0 the body first sets it to zero; at every point it adds the block's contribution; at k = 7
  it also stores scratch · scale + bias into the output's staging buffer, which is written back at those points only and left
  alone at the others. So after point t the scratch holds the sum over the blocks 0 … k of t's column, a function of the input
  blocks met so far (`accAt`), and the invariant between points names it.
  Everything is stated at a parameter `V`, the contents of the core's buffers when the region is entered.
-/
import proofs.«143824_j5239860101336_1_alg».proof.Proof.KI.Reg0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- "k = 0": the scratch is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "k = 7": the output block is stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from k = 7 the output window is idle and not written back; at k = 7 it is live. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The body on whole memrefs, case by case -/

theorem hz2 : (![0, 0] : Fin 2 → Nat) = fun _ => 0 := funext fun a => by fin_cases a <;> rfl
theorem hz3 : (![0, 0, 0] : Fin 3 → Nat) = fun _ => 0 := funext fun a => by fin_cases a <;> rfl

abbrev rS : Rect S256x128 := Rect.unit (s := S256x128) ![0, 0] S256x128.size inb_S256x128_S256x128_0_0

/-- A list of stores into a 256 × 128 buffer whose last store is the whole buffer covers it. -/
theorem coverS (p0 : Vec F S256x128 .f32) (L : List (View.Piece (Elt F) S256x128 .f32)) (y : S256x128.Idx) :
    ∃ pc ∈ ((⟨rS, p0⟩ : View.Piece (Elt F) S256x128 .f32) :: L), y ∈ pc.1.set := by
  obtain ⟨pc, hpc, hy⟩ := View.cover_of_tiled [(⟨rS, p0⟩ : View.Piece (Elt F) S256x128 .f32)] S256x128.size (by rfl) y
  rw [List.mem_singleton] at hpc; subst hpc
  exact ⟨_, List.mem_cons_self, hy⟩

/-- The scratch operand: a whole scoped buffer of the kernel's own. -/
abbrev scM : Memref sig .tc .vmem S256x128 .f32 := Memref.whole cc1_scratch0

set_option maxHeartbeats 2000000 in
/-- k = 0: the scratch, at anything, is zeroed and the block's contribution added. -/
theorem sound_kernel1_A (c : Dev nD) (E : Set ℕ) (i : grid1.Coords)
    (arg3 : Memref sig .tc .vmem S64x256 .i32) (harg3 : arg3.IsWhole) (arg4 : Memref sig .tc .vmem S64x128x256 .bf16) (harg4 : arg4.IsWhole)
    (arg5 : Memref sig .tc .vmem S1x1 .f32) (harg5 : arg5.IsWhole) (arg6 : Memref sig .tc .vmem S1x128 .f32) (harg6 : arg6.IsWhole)
    (arg7 : Memref sig .tc .vmem S256x128 .f32) (harg7 : arg7.IsWhole) (arg8 : Memref sig .tc .vmem S256x128 .f32) (harg8 : arg8.IsWhole)
    (hc0 : cond1_0 i) (hc1 : ¬cond1_1 i)
    (x0 : Vec F S64x256 .i32) (x1 : Vec F S64x128x256 .bf16) (K : PUnit → sProp 𝕄) :
    iprop(owns (c : Thread nD τ) arg3 fullShare x0 ∗ owns (c : Thread nD τ) arg4 fullShare x1 ∗ (∃ d, owns (c : Thread nD τ) arg8 fullShare d)
        ∗ (iprop(owns (c : Thread nD τ) arg3 fullShare x0 ∗ owns (c : Thread nD τ) arg4 fullShare x1
            ∗ owns (c : Thread nD τ) arg8 fullShare (k1_pay2 x0 x1 k1_pay1)) -∗ K ⟨⟩))
      ⊢ wp frame (wpE (defs₀ (F := F)) Variants.none c none) E (cc1__mm_kernel i arg3 harg3 arg4 harg4 arg5 harg5 arg6 harg6 arg7 harg7 arg8 harg8) K := by
  simp only [cc1__mm_kernel_eq_skeleton]; unfold cc1__mm_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (coverS _ _), View.canon_cons_unit_zero hz2]
  simp only [View.readAt_eq_ld, View.ld_unit_zero (S := S64x256) hz2, View.ld_unit_zero (S := S64x128x256) hz3,
    View.readCov_unit_zero (S := S256x128) _ hz2]

set_option maxHeartbeats 2000000 in
/-- 0 < k < 7: the block's contribution is added to the scratch. -/
theorem sound_kernel1_B (c : Dev nD) (E : Set ℕ) (i : grid1.Coords)
    (arg3 : Memref sig .tc .vmem S64x256 .i32) (harg3 : arg3.IsWhole) (arg4 : Memref sig .tc .vmem S64x128x256 .bf16) (harg4 : arg4.IsWhole)
    (arg5 : Memref sig .tc .vmem S1x1 .f32) (harg5 : arg5.IsWhole) (arg6 : Memref sig .tc .vmem S1x128 .f32) (harg6 : arg6.IsWhole)
    (arg7 : Memref sig .tc .vmem S256x128 .f32) (harg7 : arg7.IsWhole) (arg8 : Memref sig .tc .vmem S256x128 .f32) (harg8 : arg8.IsWhole)
    (hc0 : ¬cond1_0 i) (hc1 : ¬cond1_1 i)
    (x0 : Vec F S64x256 .i32) (x1 : Vec F S64x128x256 .bf16) (xs : Vec F S256x128 .f32) (K : PUnit → sProp 𝕄) :
    iprop(owns (c : Thread nD τ) arg3 fullShare x0 ∗ owns (c : Thread nD τ) arg4 fullShare x1 ∗ owns (c : Thread nD τ) arg8 fullShare xs
        ∗ (iprop(owns (c : Thread nD τ) arg3 fullShare x0 ∗ owns (c : Thread nD τ) arg4 fullShare x1
            ∗ owns (c : Thread nD τ) arg8 fullShare (k1_pay2 x0 x1 xs)) -∗ K ⟨⟩))
      ⊢ wp frame (wpE (defs₀ (F := F)) Variants.none c none) E (cc1__mm_kernel i arg3 harg3 arg4 harg4 arg5 harg5 arg6 harg6 arg7 harg7 arg8 harg8) K := by
  simp only [cc1__mm_kernel_eq_skeleton]; unfold cc1__mm_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (coverS _ _), View.canon_cons_unit_zero hz2]
  simp only [View.readAt_eq_ld, View.ld_unit_zero (S := S64x256) hz2, View.ld_unit_zero (S := S64x128x256) hz3,
    View.ld_unit_zero (S := S256x128) hz2]

set_option maxHeartbeats 2000000 in
/-- k = 7: the block's contribution is added, and the output buffer, at anything, receives scratch · scale + bias. -/
theorem sound_kernel1_C (c : Dev nD) (E : Set ℕ) (i : grid1.Coords)
    (arg3 : Memref sig .tc .vmem S64x256 .i32) (harg3 : arg3.IsWhole) (arg4 : Memref sig .tc .vmem S64x128x256 .bf16) (harg4 : arg4.IsWhole)
    (arg5 : Memref sig .tc .vmem S1x1 .f32) (harg5 : arg5.IsWhole) (arg6 : Memref sig .tc .vmem S1x128 .f32) (harg6 : arg6.IsWhole)
    (arg7 : Memref sig .tc .vmem S256x128 .f32) (harg7 : arg7.IsWhole) (arg8 : Memref sig .tc .vmem S256x128 .f32) (harg8 : arg8.IsWhole)
    (hc0 : ¬cond1_0 i) (hc1 : cond1_1 i)
    (x0 : Vec F S64x256 .i32) (x1 : Vec F S64x128x256 .bf16) (x2 : Vec F S1x1 .f32) (x3 : Vec F S1x128 .f32) (xs : Vec F S256x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k1_pay3 x2 (k1_pay2 x0 x1 xs) x3)
            ∗ owns (c : Thread nD τ) arg8 fullShare (k1_pay2 x0 x1 xs)) -∗ K ⟨⟩))
      ⊢ wp frame (wpE (defs₀ (F := F)) Variants.none c none) E (cc1__mm_kernel i arg3 harg3 arg4 harg4 arg5 harg5 arg6 harg6 arg7 harg7 arg8 harg8) K := by
  simp only [cc1__mm_kernel_eq_skeleton]; unfold cc1__mm_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (coverS _ _), View.canon_cons_unit_zero hz2]
    simp only [View.readAt_eq_ld, View.ld_unit_zero (S := S64x256) hz2, View.ld_unit_zero (S := S64x128x256) hz3,
      View.ld_unit_zero (S := S256x128) hz2, View.ld_unit_zero (S := S1x1) hz2, View.ld_unit_zero (S := S1x128) hz2,
      View.readCov_unit_zero (S := S256x128) _ hz2]
  iexists _; isplitr
  swap; · iexact HS
  ipureintro
  sl_unfold_run_names
  rw [View.read_writes_eq_canon _ _ _ (coverS _ _), View.canon_cons_unit_zero hz2]
  simp only [View.readAt_eq_ld, View.ld_unit_zero (S := S64x256) hz2, View.ld_unit_zero (S := S64x128x256) hz3,
    View.ld_unit_zero (S := S256x128) hz2]

/-! ## What the scratch holds after each point -/

/-- The scratch after point `n`: at the first point of a column the block's contribution added to zero, afterwards added to
    what the point before left. -/
def accAt (c : Dev nD) : (n : ℕ) → n < cfg1.N → Vec F S256x128 .f32
  | 0, hn => k1_pay2 (iblk1 V c 0 ⟨0, hn⟩) (iblk1 V c 1 ⟨0, hn⟩) k1_pay1
  | n + 1, hn =>
    if (n + 1) % 8 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (accAt c n (Nat.lt_of_succ_lt hn))

theorem accAt_reset (c : Dev nD) (t : Fin cfg1.N) (h0 : t.val % 8 = 0) :
    accAt V c t.val t.isLt = k1_pay2 (iblk1 V c 0 t) (iblk1 V c 1 t) k1_pay1 := by
  obtain ⟨n, hn⟩ := t
  cases n with
  | zero => rfl
  | succ n => exact if_pos h0

theorem accAt_step (c : Dev nD) (t : Fin cfg1.N) (h0 : ¬t.val % 8 = 0) :
    accAt V c t.val t.isLt = k1_pay2 (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- The scoped buffers that are no staging buffer of this region, but for the scratch: each whole at some contents. -/
def rest5 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region's plain invariant opened: those buffers, the scratch at some contents, the generator register. -/
theorem PhiA_open (c : Dev nD) :
    (Pipeline.ΦA spec1 c : sProp 𝕄) ⊢ iprop(rest5 c ∗ (∃ d, owns (c : Thread nD τ) scM fullShare d) ∗ (∃ r, prngReg c r)) := by
  unfold Pipeline.ΦA rest5; rw [scopedRest1_eq]; simp only [owns_whole]
  iintro ⟨⟨Ha, Hb, Hc, Hd, He, HS⟩, Hg⟩
  isplitl [Ha Hb Hc Hd He]
  · isplitl [Ha]; · iexact Ha
    isplitl [Hb]; · iexact Hb
    isplitl [Hc]; · iexact Hc
    isplitl [Hd]; · iexact Hd
    iexact He
  isplitl [HS]; · iexact HS
  iexact Hg

/-- and closed again. -/
theorem PhiA_close (c : Dev nD) :
    iprop(rest5 c ∗ (∃ d, owns (c : Thread nD τ) scM fullShare d) ∗ (∃ r, prngReg c r)) ⊢ (Pipeline.ΦA spec1 c : sProp 𝕄) := by
  unfold Pipeline.ΦA rest5; rw [scopedRest1_eq]; simp only [owns_whole]
  iintro ⟨⟨Ha, Hb, Hc, Hd, He⟩, HS, Hg⟩
  isplitr [Hg]
  · isplitl [Ha]; · iexact Ha
    isplitl [Hb]; · iexact Hb
    isplitl [Hc]; · iexact Hc
    isplitl [Hd]; · iexact Hd
    isplitl [He]; · iexact He
    iexact HS
  iexact Hg

/-- The invariant before position `n`: before the first point the region's plain one (the scratch at anything); afterwards
    the scratch at what the point before left in it. -/
def PhiS (c : Dev nD) : (n : ℕ) → n ≤ cfg1.N → sProp 𝕄
  | 0, _ => Pipeline.ΦA spec1 c
  | n + 1, hn => iprop(rest5 c ∗ owns (c : Thread nD τ) scM fullShare (accAt V c n hn) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest5 c ∗ owns (c : Thread nD τ) scM fullShare (accAt V c n hn) ∗ (∃ r, prngReg c r)) := rfl

theorem PhiS_pos (c : Dev nD) (n : ℕ) (h : n ≤ cfg1.N) (hz : n ≠ 0) :
    PhiS V c n h = iprop(rest5 c ∗ owns (c : Thread nD τ) scM fullShare (accAt V c (n - 1) (by omega)) ∗ (∃ r, prngReg c r)) := by
  cases n with
  | zero => exact absurd rfl hz
  | succ n => rfl

/-! ## The proof data -/

/-- The proof data of the second pipeline on core `c`: the arrays as the region finds them; after the body each input's buffer
    at its block, the output's at scratch · scale + bias of the point's blocks and scratch; the invariant `PhiS`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (iblk1 V c 2 t) (accAt V c t.val t.isLt) (iblk1 V c 3 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay3 (iblk1 V c 2 t) (accAt V c t.val t.isLt) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the position of the point in its column says which case it
    is in; the invariant hands the body the scratch at what the point before left (at anything at the very first point) and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  by_cases h0 : t.val % 8 = 0
  · have h1 : ¬t.val % 8 = 7 := by omega
    rw [Dat.leavesExact_idle (dat1 V c) 4 t (idleAt1_4 t (fun h => h1 ((hcond1_1 t).mp h))) (noFlush1_4 t (fun h => h1 ((hcond1_1 t).mp h)))]
    rw [accAt_reset V c t h0]
    have hrun := sound_kernel1_A (F := F) c Set.univ (grid1.coords t) (st1_0 t) (hstage1_0 ((cfg1.slots t 0).cast nbuf1_0))
      (st1_1 t) (hstage1_1 ((cfg1.slots t 1).cast nbuf1_1)) (st1_2 t) (hstage1_2 ((cfg1.slots t 2).cast nbuf1_2))
      (st1_3 t) (hstage1_3 ((cfg1.slots t 3).cast nbuf1_3)) (st1_4 t) (hstage1_4 ((cfg1.slots t 4).cast nbuf1_4))
      (Memref.whole cc1_scratch0) (Memref.isWhole_whole _) ((hcond1_0 t).mpr h0) (fun h => h1 ((hcond1_1 t).mp h))
      (iblk1 V c 0 t) (iblk1 V c 1 t)
    by_cases hz : t.val = 0
    · rw [PhiS_castSucc V c t, PhiS_zero V c _ _ hz]
      iintro ⟨Hphi, Ho, ⟨%d0, H0⟩, ⟨%d1, H1⟩, ⟨%d2, H2⟩, ⟨%d3, H3⟩, H4⟩
      ihave Hopen := PhiA_open c $$ Hphi
      icases Hopen with ⟨Hr, HS, Hg⟩
      iapply (hrun _)
      isplitl [H0]; · iexact H0
      isplitl [H1]; · iexact H1
      isplitl [HS]; · iexact HS
      iintro ⟨H0, H1, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexact H4
    · rw [PhiS_castSucc V c t, PhiS_pos V c _ _ hz]
      iintro ⟨⟨Hr, HS, Hg⟩, Ho, ⟨%d0, H0⟩, ⟨%d1, H1⟩, ⟨%d2, H2⟩, ⟨%d3, H3⟩, H4⟩
      iapply (hrun _)
      isplitl [H0]; · iexact H0
      isplitl [H1]; · iexact H1
      isplitl [HS]; · iexists _; iexact HS
      iintro ⟨H0, H1, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexact H4
  · have hz : t.val ≠ 0 := fun h => h0 (by rw [h])
    rw [accAt_step V c t h0]
    rw [PhiS_castSucc V c t, PhiS_pos V c _ _ hz]
    by_cases h1 : t.val % 8 = 7
    · rw [show (dat1 V c).leavesExact 4 t = owns (c : Thread nD τ) (st1_4 t) fullShare ((dat1 V c).after 4 t) from by
        unfold Dat.leavesExact; rw [liveAt1_4 t ((hcond1_1 t).mpr h1)], after1_4, accAt_step V c t h0]
      iintro ⟨⟨Hr, HS, Hg⟩, Ho, ⟨%d0, H0⟩, ⟨%d1, H1⟩, ⟨%d2, H2⟩, ⟨%d3, H3⟩, ⟨%d4, H4⟩⟩
      iapply (sound_kernel1_C (F := F) c Set.univ (grid1.coords t) (st1_0 t) (hstage1_0 ((cfg1.slots t 0).cast nbuf1_0))
        (st1_1 t) (hstage1_1 ((cfg1.slots t 1).cast nbuf1_1)) (st1_2 t) (hstage1_2 ((cfg1.slots t 2).cast nbuf1_2))
        (st1_3 t) (hstage1_3 ((cfg1.slots t 3).cast nbuf1_3)) (st1_4 t) (hstage1_4 ((cfg1.slots t 4).cast nbuf1_4))
        (Memref.whole cc1_scratch0) (Memref.isWhole_whole _) (fun h => h0 ((hcond1_0 t).mp h)) ((hcond1_1 t).mpr h1)
        (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t (fun h => h1 ((hcond1_1 t).mp h))) (noFlush1_4 t (fun h => h1 ((hcond1_1 t).mp h)))]
      iintro ⟨⟨Hr, HS, Hg⟩, Ho, ⟨%d0, H0⟩, ⟨%d1, H1⟩, ⟨%d2, H2⟩, ⟨%d3, H3⟩, H4⟩
      iapply (sound_kernel1_B (F := F) c Set.univ (grid1.coords t) (st1_0 t) (hstage1_0 ((cfg1.slots t 0).cast nbuf1_0))
        (st1_1 t) (hstage1_1 ((cfg1.slots t 1).cast nbuf1_1)) (st1_2 t) (hstage1_2 ((cfg1.slots t 2).cast nbuf1_2))
        (st1_3 t) (hstage1_3 ((cfg1.slots t 3).cast nbuf1_3)) (st1_4 t) (hstage1_4 ((cfg1.slots t 4).cast nbuf1_4))
        (Memref.whole cc1_scratch0) (Memref.isWhole_whole _) (fun h => h0 ((hcond1_0 t).mp h)) (fun h => h1 ((hcond1_1 t).mp h))
        (iblk1 V c 0 t) (iblk1 V c 1 t) _ _)
      isplitl [H0]; · iexact H0
      isplitl [H1]; · iexact H1
      isplitl [HS]; · iexact HS
      iintro ⟨H0, H1, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexact H4

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the plain one back: the scratch's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  iintro ⟨Hr, HS, Hg⟩
  iapply (PhiA_close c)
  isplitl [Hr]; · iexact Hr
  isplitl [HS]; · iexists _; iexact HS
  iexact Hg

end Cert.KernelIdeal.Hand

end
-- ==== Proof.KI.Run.lean ====
/-
  The program's run. @main is a list of host stretches and the two kernel regions; the host side and the chaining are the
  generated conditional frame's, and this module supplies what it asks for: each region as a segment — entered from every
  unscoped buffer at the contents the lines before it leave, left with the region's arrays at what its write-backs leave and
  every other buffer as entered, the generator register at some state and nothing owed riding along.
  The contents a region leaves in its output array are named: the first region's table `(dat0 …).arrAt 2 N`, the second's
  result `(dat1 …).arrAt 4 N`, each the fold of its blocks' write-backs.
-/
import proofs.«143824_j5239860101336_1_alg».proof.Proof.KI.Reg1
import proofs.«143824_j5239860101336_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the regions' boundaries -/

/-- The first region's entry contents, read at the core's references. -/
abbrev VA : (c : Dev nD) → (b : Ref sig .tc) → Buf (Elt F) ((c : Thread nD τ).loc b) := fun c b => V9 m c b
/-- At the first region's exit: its arrays at what the pipeline leaves, every other buffer as entered. -/
def WA (c : Dev nD) : Valuation τ sig (Elt F) :=
  Pipeline.withArrays spec0 c (V9 m c) fun w => (dat0 (VA m) c).arrAt w cfg0.N
theorem WA_arr (c : Dev nD) (w : Fin cfg0.W) :
    WA m c (Proc.devRef .tc (Pipeline.arrRef spec0 w)) = (dat0 (VA m) c).arrAt w cfg0.N := by
  unfold WA; exact Pipeline.withArrays_arr spec0 launch0.win.arr_inj c _ _ w
/-- What the first region leaves, as the conditional frame's unknowns. -/
def outsA : Outs (F := F) := fun _ r c => WA m c r
/-- The second region's entry contents. -/
abbrev VB : (c : Dev nD) → (b : Ref sig .tc) → Buf (Elt F) ((c : Thread nD τ).loc b) := fun c b => V11 m (outsA m) c b
/-- At the second region's exit. -/
def WB (c : Dev nD) : Valuation τ sig (Elt F) :=
  Pipeline.withArrays spec1 c (V11 m (outsA m) c) fun w => (dat1 (VB m) c).arrAt w cfg1.N
theorem WB_arr (c : Dev nD) (w : Fin cfg1.W) :
    WB m c (Proc.devRef .tc (Pipeline.arrRef spec1 w)) = (dat1 (VB m) c).arrAt w cfg1.N := by
  unfold WB; exact Pipeline.withArrays_arr spec1 launch1.win.arr_inj c _ _ w
/-- What the two regions leave: after item 9 the first region's exit contents, after item 11 the second's. -/
def outs : Outs (F := F) := fun n r c => if n = 10 then WA m c r else WB m c r

theorem outs_10 (c : Dev nD) : outs m 10 main_v21 c = WA m c main_v21 := if_pos rfl
theorem outs_12 (c : Dev nD) : outs m 12 main_v25 c = WB m c main_v25 := if_neg (by decide)

theorem V10_eq (c : Dev nD) : V10 m (outs m) c = V10 m (outsA m) c := by
  show Function.update (V9 m c) (Proc.devRef .tc main_v21) (outs m 10 main_v21 c) = Function.update (V9 m c) (Proc.devRef .tc main_v21) (outsA m 10 main_v21 c)
  rw [outs_10]; rfl
theorem V11_eq (c : Dev nD) : V11 m (outs m) c = V11 m (outsA m) c :=
  congrArg (StableHlo.after hostOps1) (V10_eq m c)

/-- The first region's exit contents at the core's references. -/
abbrev XA : (c : Dev nD) → (b : Ref sig .tc) → Buf (Elt F) ((c : Thread nD τ).loc b) := fun c b => V10 m (outs m) c b
/-- The second region's. -/
abbrev XB : (c : Dev nD) → (b : Ref sig .tc) → Buf (Elt F) ((c : Thread nD τ).loc b) := fun c b => V12 m (outs m) c b

theorem XA_out (c : Dev nD) : XA m c main_v21 = (dat0 (VA m) c).arrAt 2 cfg0.N := by
  show Function.update (V9 m c) (Proc.devRef .tc main_v21) (outs m 10 main_v21 c) (Proc.devRef .tc main_v21) = _
  rw [Function.update_self, outs_10]; exact WA_arr m c 2
theorem XB_out (c : Dev nD) : XB m c main_v25 = (dat1 (VB m) c).arrAt 4 cfg1.N := by
  show Function.update (V11 m (outs m) c) (Proc.devRef .tc main_v25) (outs m 12 main_v25 c) (Proc.devRef .tc main_v25) = _
  rw [Function.update_self, outs_12]; exact WB_arr m c 4

theorem hF0 (c : Dev nD) (w : Fin cfg0.W) : (dat0 (VA m) c).arrAt w cfg0.N = XA m c (Pipeline.arrRef spec0 w) := by
  match w with
  | ⟨0, _⟩ => exact (((dat0 (VA m) c).arrAt_in 0 rfl _).trans (A_eq0 (VA m) c 0)).trans (V10_of m (outs m) c main_v19 (by decide)).symm
  | ⟨1, _⟩ => exact (((dat0 (VA m) c).arrAt_in 1 rfl _).trans (A_eq0 (VA m) c 1)).trans (V10_of m (outs m) c main_v20 (by decide)).symm
  | ⟨2, _⟩ => exact (XA_out m c).symm
theorem hrest0 (c : Dev nD) : ∀ b, b ∉ Finset.univ.image (Pipeline.arrRef spec0) → XA m c b = VA m c b := fun b hb =>
  V10_of m (outs m) c b (fun h => hb (Finset.mem_image.mpr ⟨2, Finset.mem_univ _, (List.mem_singleton.mp h).symm⟩))

theorem hF1_in (c : Dev nD) (w : Fin cfg1.W) (hw : (cfg1.win w).isOut = false) (r : Ref sig .tc) (hr : Pipeline.arrRef spec1 w = r)
    (hne : r ∉ ([main_v25] : List (Ref sig .tc))) : (dat1 (VB m) c).arrAt w cfg1.N = XB m c (Pipeline.arrRef spec1 w) := by
  subst hr
  exact (((dat1 (VB m) c).arrAt_in w hw _).trans (A_eq1 (VB m) c w)).trans ((V12_of m (outs m) c _ hne).trans (congrFun (V11_eq m c) _)).symm
theorem hF1 (c : Dev nD) (w : Fin cfg1.W) : (dat1 (VB m) c).arrAt w cfg1.N = XB m c (Pipeline.arrRef spec1 w) := by
  match w with
  | ⟨0, _⟩ => exact hF1_in m c 0 rfl main_v18 rfl (by decide)
  | ⟨1, _⟩ => exact hF1_in m c 1 rfl main_v21 rfl (by decide)
  | ⟨2, _⟩ => exact hF1_in m c 2 rfl main_v23 rfl (by decide)
  | ⟨3, _⟩ => exact hF1_in m c 3 rfl main_v24 rfl (by decide)
  | ⟨4, _⟩ => exact (XB_out m c).symm
theorem hrest1 (c : Dev nD) : ∀ b, b ∉ Finset.univ.image (Pipeline.arrRef spec1) → XB m c b = VB m c b := fun b hb =>
  (V12_of m (outs m) c b (fun h => hb (Finset.mem_image.mpr ⟨4, Finset.mem_univ _, (List.mem_singleton.mp h).symm⟩))).trans
    (congrFun (V11_eq m c) _)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

set_option backward.isDefEq.respectTransparency.types false in
/-- The first region as a segment. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (V9 m c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (XA m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region as a segment: the generator register and the scoped rest enter the tracked invariant, which gives them
    back after the last point with the scratch's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (V11 m (outsA m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VB m) c)
    unfold Pipeline.ΦA
    iintro ⟨Hp, -, Hr⟩
    isplitl [Hr]; · iexact Hr
    iexact Hp
  hout c := by
    rw [Pipeline.ownSems0_none]
    refine BIBase.Entails.trans (hout1 (VB m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (XB m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch's ghost state: the cells and tokens of the two pipelines, nothing else. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the first thread state's rest. -/
theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME: every weakly fair execution of @main terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m emb₁ () 𝒱₀ L lv (fun _ _ => rfl) ρ (outs m) (pdats m) 0 (fun _ => iprop(emp))
    (initOf (Pipeline.cells cfgs cellOf_inj) (Pipeline.launchToks cfgs cellOf_inj)) hu₀
    (fun _ c => R c) (hE0 ρ) (fun c => by iintro ⟨-, HO⟩; iexact HO)
    (reg0 m) (fun c => .rfl) (fun c => .rfl)
    (reg1 m) (fun c => by rw [V11_eq]; exact .rfl) (fun c => .rfl)

end Cert.KernelIdeal.Hand

end
-- ==== Proof.KI.RunVal.lean ====
/-
  The program's run with its result named: the same launch over the same segments as the frame, the last thread state read
  at the result's buffer too — the second region's output array, the fold of its blocks' write-backs.
-/
import proofs.«143824_j5239860101336_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

set_option backward.isDefEq.respectTransparency.types false in
/-- Every weakly fair execution of @main terminates, nothing faulting; the result's buffer ends at what the second region's
    write-backs leave, the argument arrays as launched. -/
theorem run_value : θ_run defs (onTc (τ := τ) (main (F := F))) ⟨m, fun _ => 0, ρ⟩ (fun r => ∀ c : Dev nD,
      r.2.mem ((c.tc : Thread nD τ).loc main_v25) = (dat1 (VB m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m))
    (fun c Q => by
      rewrite [main_chain c, Seg.run_eq_chain,
        show (segs m (outs m) 𝒱₀ L lv (fun _ c => R c) () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (V0 m c) ∗ R c))
    (Tₙ := fun c => StableHlo.held (c : Thread nD τ) (Pipeline.ucRefs τ sig) (V12 m (outs m) c))
    (hch := fun c => ⟨.rfl, .rfl, .rfl, .rfl, .rfl, .rfl, .rfl, .rfl, .rfl, .rfl, .rfl, (show iprop(StableHlo.held (c : Thread nD τ) (Pipeline.ucRefs τ sig) (V11 m (outs m) c) ∗ R c) ⊢ (reg1 m).pre c from by rw [V11_eq]; exact .rfl),
      sep_mono .rfl (show R c ⊢ (iprop(∃ W, owes (c : Thread nD τ) (0 : CellTallies nD τ sig Unit) W) : sProp 𝕄) from by iintro ⟨-, HO⟩; iexact HO)⟩)
    (hinit := ?_) (QY := fun c s => s.mem ((c.tc : Thread nD τ).loc main_v25) = (dat1 (VB m) c).arrAt 4 cfg1.N
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · -- the launch: the unscoped buffers are held at the launch contents; the rest makes the first thread state's rest
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    iapply (show (iprop((bigSep Finset.univ fun c : Dev nD => StableHlo.held (c : Thread nD τ) (Pipeline.ucRefs τ sig) (V0 m c))
          ∗ bigSep Finset.univ fun c : Dev nD => R c) : sProp 𝕄)
        ⊢ bigSep Finset.univ fun c : Dev nD => iprop(StableHlo.held (c : Thread nD τ) (Pipeline.ucRefs τ sig) (V0 m c) ∗ R c) from
      (bigSep_sep' Finset.univ (fun c : Dev nD => StableHlo.held (c : Thread nD τ) (Pipeline.ucRefs τ sig) (V0 m c)) (fun c : Dev nD => R c)) ▸ BI.Entails.refl _)
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (V12 m (outs m) c) s') $$ [Hh HSI]
    · isplitl [Hh] <;> iassumption
    icases Hr with ⟨%h, HSI⟩
    imodintro
    isplitr
    · ipureintro
      exact ⟨(h (Proc.devRef .tc main_v25) (Finset.mem_filter.mpr ⟨StableHlo.devRef_mem_tcRefs main_v25, by decide⟩)).trans (XB_out m c),
        (h (Proc.devRef .tc main_arg0) (Finset.mem_filter.mpr ⟨StableHlo.devRef_mem_tcRefs main_arg0, by decide⟩)).trans (V12_main_arg0 m (outs m) c),
        (h (Proc.devRef .tc main_arg1) (Finset.mem_filter.mpr ⟨StableHlo.devRef_mem_tcRefs main_arg1, by decide⟩)).trans (V12_main_arg1 m (outs m) c),
        (h (Proc.devRef .tc main_arg2) (Finset.mem_filter.mpr ⟨StableHlo.devRef_mem_tcRefs main_arg2, by decide⟩)).trans (V12_main_arg2 m (outs m) c),
        (h (Proc.devRef .tc main_arg3) (Finset.mem_filter.mpr ⟨StableHlo.devRef_mem_tcRefs main_arg3, by decide⟩)).trans (V12_main_arg3 m (outs m) c)⟩
    · iexact HSI

end Cert.KernelIdeal.Hand

end
-- ==== Proof.LibMatmulRead.lean ====
/-
  A matrix product into a zero accumulator, read at an index on the extended reals.

  When the dimension numbers contract ONE axis of extent `n`, the product at an output index `j` is the sum over
  `k : Fin n` of the left operand at `L k` times the right operand at `R k`, where `L k`, `R k` are the operand indices
  the dimension numbers assign to `j` and the contraction coordinate `k` (hypotheses `hl`, `hr'`: whatever batch and free
  axes there are, the caller names the two index families once).
-/
import Idealize.ShloMosaic.PureOps.Ideal.Laws
import Idealize.ShloMosaic.Lib.ValueIdx

noncomputable section

namespace Cert.MatmulRead

open Idealize.ShloMosaic Idealize.ShloMosaic.ValueIdx

/-- A product into the zero splat, one contracted axis of extent `n`: `∑ k : Fin n, lhs (L k) * rhs (R k)`. -/
theorem matmul_zero_read {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ k, D.lhsIdx j ((contrEquiv1 D n hr hs).symm k) = L k)
    (hr' : ∀ k, D.rhsIdx j ((contrEquiv1 D n hr hs).symm k) = R k) :
    matmul D prec lhs rhs (constant so .f32 0x00000000#32) j = ∑ k : Fin n, lhs (L k) * rhs (R k) := by
  simp only [matmul]
  rw [Ideal.matmul_constant_zero_apply, ← Equiv.sum_comp (contrEquiv1 D n hr hs).symm]
  exact Finset.sum_congr rfl fun k _ => by rw [hl k, hr' k]

end Cert.MatmulRead

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.KPay.lean ====
/-
  The two kernels' stored values read at an index, over the extended reals.

  A comparison bit widened to 32 bits and converted signed is the real 1 or 0 (`hot`), so a sum over the 256 table
  positions of that one-hot factor times any family picks the one position the word names (`onehot_sum`). With it:
  the first kernel's stored block at (a, b, p) is the table entry (w(a,b) + 128, p) — a one-hot matrix times the table,
  between two reshapes that flatten (a, b) to the row a·128 + b —; the second kernel's accumulator step at (r, n) adds, over
  the 64 positions k of the step, the first kernel's entry (k, n, x(k,r) + 128) — a batched one-hot product summed over its
  batch axis —; its first step stores zero; its last step multiplies by the scale and adds the bias row.
-/
import proofs.«143824_j5239860101336_1_alg».proof.Proof.Gen.KernelIdeal.Skeleton
import proofs.«143824_j5239860101336_1_alg».proof.Proof.LibMatmulRead
import proofs.«143824_j5239860101336_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The float a comparison bit becomes: the bit of `x = y` widened to 32 bits and converted signed. -/
def hot (x y : BitVec 32) : EReal := FloatOps.sitofp (F := Ideal) .f32 ((IntOp.cmpi .eq x y).setWidth 32)

theorem hot_self (x : BitVec 32) : hot x x = 1 := by
  unfold hot IntOp.cmpi
  show (((((BitVec.ofBool (x == x)).setWidth 32).toInt : ℤ) : ℝ) : EReal) = 1
  simp

theorem hot_ne {x y : BitVec 32} (h : x ≠ y) : hot x y = 0 := by
  unfold hot IntOp.cmpi
  show (((((BitVec.ofBool (x == y)).setWidth 32).toInt : ℤ) : ℝ) : EReal) = 0
  have : (x == y) = false := by simpa using h
  rw [this]
  simp

theorem onehot_sum (w : BitVec 32) (h : w.toNat < 256) (f : Fin 256 → EReal) :
    ∑ q : Fin 256, hot (BitVec.ofNat 32 q.val) w * f q = f ⟨w.toNat, h⟩ := by
  rw [Finset.sum_eq_single (⟨w.toNat, h⟩ : Fin 256)]
  · have : BitVec.ofNat 32 w.toNat = w := by simp
    show hot (BitVec.ofNat 32 w.toNat) w * _ = _
    rw [this, hot_self, one_mul]
  · intro q _ hq
    rw [hot_ne, zero_mul]
    intro e
    apply hq
    apply Fin.ext
    show q.val = w.toNat
    rw [← e]
    simp
    have := q.isLt
    omega
  · intro hn; exact absurd (Finset.mem_univ _) hn

/-! ## The first kernel: the table row each weight selects -/

/-- The word each cell of the first kernel's mask is compared with: the weight plus 128, along a new last axis. -/
def sel0 (v0 : IVec S64x128 32) : IVec S64x128x256 32 :=
  broadcastTo S64x128x256 (addi (shapeCast S64x128x1 (shapeCast S64x128 v0 shapeCasts_S64x128_S64x128) shapeCasts_S64x128_S64x128x1)
    (broadcast S64x128x1 128#32)) broadcasts_S64x128x1_S64x128x256

theorem sel0_apply (v0 : IVec S64x128 32) (a : Fin 64) (b : Fin 128) (q : Fin 256) :
    sel0 v0 (ix3 a b q) = v0 (ix2 a b) + 128#32 := by
  unfold sel0
  refine (broadcastTo_apply _ broadcasts_S64x128x1_S64x128x256 (ix3 a b q) (ix3 a b (0 : Fin 1))
    (fun ax => match ax with | ⟨0, _⟩ => rfl | ⟨1, _⟩ => rfl | ⟨2, _⟩ => rfl)).trans ?_
  show IntOp.addi (shapeCast S64x128x1 (shapeCast S64x128 v0 shapeCasts_S64x128_S64x128) shapeCasts_S64x128_S64x128x1 (ix3 a b (0 : Fin 1))) 128#32 = _
  rw [shapeCast_self]
  rw [shapeCast_apply v0 shapeCasts_S64x128_S64x128x1 (ix3 a b (0 : Fin 1)) (ix2 a b)
    (by rw [Shape.rowMajor_val_two, Shape.rowMajor_val_three]; show a.val * 128 + b.val = (a.val * 128 + b.val) * 1 + 0; omega)]
  rfl

/-- The first kernel's one-hot mask, as the matrix product's left operand. -/
def mask0 (v0 : IVec S64x128 32) : FVec Ideal S64x128x256 .bf16 :=
  truncf .bf16 (sitofp .f32 (extui 32 (cmpi .eq (iota .tc S64x128x256 32 [2] iota_S64x128x256_d2_w32) (sel0 v0)) natLt_1_32)
    : FVec Ideal S64x128x256 .f32) bitsLt_bf16_f32

theorem mask0_apply (v0 : IVec S64x128 32) (a : Fin 64) (b : Fin 128) (q : Fin 256) :
    mask0 v0 (ix3 a b q) = hot (BitVec.ofNat 32 q.val) (v0 (ix2 a b) + 128#32) := by
  show hot (iota .tc S64x128x256 32 [2] iota_S64x128x256_d2_w32 (ix3 a b q)) (sel0 v0 (ix3 a b q)) = _
  rw [iota_single_apply, sel0_apply]

theorem pay0_eq (v0 : Vec Ideal S64x128 .i32) (v12 : Vec Ideal S256x256 .f32) :
    k0_pay1 (F := Ideal) v0 v12 = truncf .bf16 (shapeCast S64x128x256
      (matmul dot_S8192x256_S256x256_S8192x256_1_0_0_1_n_n none (shapeCast S8192x256 (mask0 v0) shapeCasts_S64x128x256_S8192x256)
        (truncf .bf16 (shapeCast S256x256 v12 shapeCasts_S256x256_S256x256) bitsLt_bf16_f32 : FVec Ideal S256x256 .bf16)
        (constant S8192x256 .f32 0x00000000#32)) shapeCasts_S8192x256_S64x128x256 : FVec Ideal S64x128x256 .f32) bitsLt_bf16_f32 := rfl

theorem row0_lt (a : Fin 64) (b : Fin 128) : a.val * 128 + b.val < 8192 := by
  have := a.isLt; have := b.isLt; omega

/-- the one-hot cell a 32-bit word selects, when it is in range -/
theorem pay0_apply (v0 : Vec Ideal S64x128 .i32) (v12 : Vec Ideal S256x256 .f32) (a : Fin 64) (b : Fin 128) (p : Fin 256)
    (h : (v0 (ix2 a b) + 128#32).toNat < 256) :
    k0_pay1 (F := Ideal) v0 v12 (ix3 a b p) = v12 (ix2 ⟨(v0 (ix2 a b) + 128#32).toNat, h⟩ p) := by
  rw [pay0_eq]
  refine (truncf_apply _ bitsLt_bf16_f32 _).trans ?_
  refine (shapeCast_apply _ shapeCasts_S8192x256_S64x128x256 (ix3 a b p) (ix2 (⟨a.val * 128 + b.val, row0_lt a b⟩ : Fin 8192) p)
    (by rw [Shape.rowMajor_val_two, Shape.rowMajor_val_three]; rfl)).trans ?_
  refine (Cert.Proof.PlainDot.matmul_plain_zero none _ _ _).trans ?_
  rw [← onehot_sum (v0 (ix2 a b) + 128#32) h (fun q => v12 (ix2 q p))]
  refine Finset.sum_congr rfl fun q _ => ?_
  refine congrArg₂ (· * ·) ?_ ?_
  · refine (shapeCast_apply _ shapeCasts_S64x128x256_S8192x256 _ (ix3 a b q)
      (by rw [Shape.rowMajor_val_two, Shape.rowMajor_val_three]; rfl)).trans ?_
    exact mask0_apply v0 a b q
  · show shapeCast S256x256 v12 shapeCasts_S256x256_S256x256 _ = _
    rw [shapeCast_self]

/-! ## The second kernel: the table cell each activation selects, summed -/

/-- The word each cell of the second kernel's mask is compared with: the activation plus 128, along a new last axis. -/
def sel1 (v3 : IVec S64x256 32) : IVec S64x256x256 32 :=
  broadcastTo S64x256x256 (addi (shapeCast S64x256x1 (shapeCast S64x256 v3 shapeCasts_S64x256_S64x256) shapeCasts_S64x256_S64x256x1)
    (broadcast S64x256x1 128#32)) broadcasts_S64x256x1_S64x256x256

theorem sel1_apply (v3 : IVec S64x256 32) (k : Fin 64) (r : Fin 256) (q : Fin 256) :
    sel1 v3 (ix3 k r q) = v3 (ix2 k r) + 128#32 := by
  unfold sel1
  refine (broadcastTo_apply _ broadcasts_S64x256x1_S64x256x256 (ix3 k r q) (ix3 k r (0 : Fin 1))
    (fun ax => match ax with | ⟨0, _⟩ => rfl | ⟨1, _⟩ => rfl | ⟨2, _⟩ => rfl)).trans ?_
  show IntOp.addi (shapeCast S64x256x1 (shapeCast S64x256 v3 shapeCasts_S64x256_S64x256) shapeCasts_S64x256_S64x256x1 (ix3 k r (0 : Fin 1))) 128#32 = _
  rw [shapeCast_self]
  rw [shapeCast_apply v3 shapeCasts_S64x256_S64x256x1 (ix3 k r (0 : Fin 1)) (ix2 k r)
    (by rw [Shape.rowMajor_val_two, Shape.rowMajor_val_three]; show k.val * 256 + r.val = (k.val * 256 + r.val) * 1 + 0; omega)]
  rfl

/-- The second kernel's one-hot mask, the batched product's left operand. -/
def mask1 (v3 : IVec S64x256 32) : FVec Ideal S64x256x256 .bf16 :=
  truncf .bf16 (sitofp .f32 (extui 32 (cmpi .eq (iota .tc S64x256x256 32 [2] iota_S64x256x256_d2_w32) (sel1 v3)) natLt_1_32)
    : FVec Ideal S64x256x256 .f32) bitsLt_bf16_f32

theorem mask1_apply (v3 : IVec S64x256 32) (k : Fin 64) (r : Fin 256) (q : Fin 256) :
    mask1 v3 (ix3 k r q) = hot (BitVec.ofNat 32 q.val) (v3 (ix2 k r) + 128#32) := by
  show hot (iota .tc S64x256x256 32 [2] iota_S64x256x256_d2_w32 (ix3 k r q)) (sel1 v3 (ix3 k r q)) = _
  rw [iota_single_apply, sel1_apply]

theorem pay2_eq (v3 : Vec Ideal S64x256 .i32) (v14 : Vec Ideal S64x128x256 .bf16) (v17 : Vec Ideal S256x128 .f32) :
    k1_pay2 (F := Ideal) v3 v14 v17 = shapeCast S256x128 (addf v17 (multiReduction .add [0] S256x128
      (matmul dot_S64x256x256_S64x128x256_S64x256x128_2_2_1_1_0_0 none (mask1 v3)
        (shapeCast S64x128x256 v14 shapeCasts_S64x128x256_S64x128x256 : FVec Ideal S64x128x256 .bf16) (constant S64x256x128 .f32 0x00000000#32))
      0x00000000#32 reduces_S64x256x128_S256x128 (.inl rfl) rfl)) shapeCasts_S256x128_S256x128 := rfl

/-- The batched product (batch axis 0, both operands contracted on their last axis) into the zero accumulator, read at an index. -/
theorem mm1_apply (X : FVec Ideal S64x256x256 .bf16) (W : FVec Ideal S64x128x256 .bf16) (k : Fin 64) (r : Fin 256) (n : Fin 128) :
    matmul dot_S64x256x256_S64x128x256_S64x256x128_2_2_1_1_0_0 none X W (constant S64x256x128 .f32 0x00000000#32) (ix3 k r n)
      = ∑ p : Fin 256, X (ix3 k r p) * W (ix3 k n p) := by
  refine Cert.MatmulRead.matmul_zero_read dot_S64x256x256_S64x128x256_S64x256x128_2_2_1_1_0_0 none 256 rfl rfl X W (ix3 k r n)
    (fun p => ix3 k r p) (fun p => ix3 k n p) (fun p => ?_) (fun p => ?_)
  · funext ax
    refine Fin.ext ?_
    match ax with
    | ⟨0, _⟩ => rfl
    | ⟨1, _⟩ => rfl
    | ⟨2, _⟩ => exact (DotDims.lhsIdx_val_of_single _ rfl _ _).trans (contrEquiv1_symm_val _ 256 rfl rfl p)
  · funext ax
    refine Fin.ext ?_
    match ax with
    | ⟨0, _⟩ => rfl
    | ⟨1, _⟩ => rfl
    | ⟨2, _⟩ => exact (DotDims.rhsIdx_val_of_single _ rfl _ _).trans (contrEquiv1_symm_val _ 256 rfl rfl p)

/-- The sum over the leading axis of a [64,256,128] array, read at an index. -/
theorem red1_apply (src : FVec Ideal S64x256x128 .f32) (r : Fin 256) (n : Fin 128) :
    multiReduction .add [0] S256x128 src 0x00000000#32 reduces_S64x256x128_S256x128 (.inl rfl) rfl (ix2 r n)
      = ∑ k : Fin 64, src (ix3 k r n) := by
  refine (Ideal.multiReduction_add_single src _ reduces_S64x256x128_S256x128 _ _ (ix2 r n)).trans ?_
  show ∑ k : Fin 64, src (reduces_S64x256x128_S256x128.lift (ix2 r n) k) = _
  refine Finset.sum_congr rfl fun k _ => congrArg src ?_
  funext ax
  refine Fin.ext ?_
  match ax with
  | ⟨0, _⟩ => rfl
  | ⟨1, _⟩ => rfl
  | ⟨2, _⟩ => rfl

theorem pay2_apply (v3 : Vec Ideal S64x256 .i32) (v14 : Vec Ideal S64x128x256 .bf16) (v17 : Vec Ideal S256x128 .f32) (r : Fin 256) (n : Fin 128)
    (h : ∀ k : Fin 64, (v3 (ix2 k r) + 128#32).toNat < 256) :
    k1_pay2 (F := Ideal) v3 v14 v17 (ix2 r n) = v17 (ix2 r n) + ∑ k : Fin 64, v14 (ix3 k n ⟨(v3 (ix2 k r) + 128#32).toNat, h k⟩) := by
  rw [pay2_eq, shapeCast_self]
  refine (addf_apply _ _ _).trans ?_
  refine congrArg (v17 (ix2 r n) + ·) ?_
  refine (red1_apply _ r n).trans ?_
  refine Finset.sum_congr rfl fun k _ => ?_
  refine (mm1_apply _ _ k r n).trans ?_
  rw [← onehot_sum (v3 (ix2 k r) + 128#32) (h k) (fun p => v14 (ix3 k n p))]
  refine Finset.sum_congr rfl fun p _ => ?_
  rw [mask1_apply, shapeCast_self]

/-! ## The second kernel's first and last steps -/

theorem pay1_apply (i : S256x128.Idx) : k1_pay1 (F := Ideal) i = 0 := by
  show shapeCast S256x128 (broadcast S256x128 (Scalar.ofBits (F := Ideal) .f32 0x00000000#32)) shapeCasts_S256x128_S256x128 i = 0
  rw [shapeCast_self]
  exact Ideal.ofBits_zero_f32

theorem pay3_apply (v26 : Vec Ideal S1x1 .f32) (v28 : Vec Ideal S256x128 .f32) (v31 : Vec Ideal S1x128 .f32) (r : Fin 256) (n : Fin 128) :
    k1_pay3 (F := Ideal) v26 v28 v31 (ix2 r n) = v28 (ix2 r n) * v26 (ix2 0 0) + v31 (ix2 0 n) := by
  show v28 (ix2 r n) * extractAt ![0, 0] v26 inpos_S1x1_p0_0
      + broadcastTo S256x128 (shapeCast S1x128 v31 shapeCasts_S1x128_S1x128) broadcasts_S1x128_S256x128 (ix2 r n) = _
  rw [shapeCast_self, broadcastTo_1b_ab_apply]
  refine congrArg (v28 (ix2 r n) * · + v31 (ix2 0 n)) ?_
  unfold extractAt
  refine congrArg v26 ?_
  funext ax
  match ax with
  | ⟨0, _⟩ => rfl
  | ⟨1, _⟩ => rfl

end Cert.KernelIdeal.Pay

end
-- ==== Proof.Spec.lean ====
/-
  The function both programs compute, on the extended reals.

  An activation matrix x and a weight matrix w are quantised to 8-bit integers xq, wq (held as 32-bit words), and every
  product of a linear layer is replaced by a look-up in a 256 × 256 table: the entry of the result in row b and column o is
      (Σ_k lut[xq(b,k) + 128, wq(o,k) + 128]) · scale + bias(o).
  A word v names the table cell (v + 128) mod 256; for the quantised words, which lie between -128 and 127, that is the
  cell v + 128 itself.
-/
import Idealize.ShloMosaic.Lib.ValueIdx

noncomputable section

namespace Cert.Spec

open Idealize.ShloMosaic Idealize.ShloMosaic.ValueIdx

/-- The table cell a 32-bit word names: (v + 128) mod 256. -/
def cell (v : BitVec 32) : Fin 256 := ⟨(v + 128#32).toNat % 256, Nat.mod_lt _ (by norm_num)⟩

/-- Where the shifted word is below 256 the cell is the shifted word. -/
theorem cell_of_lt (v : BitVec 32) (h : (v + 128#32).toNat < 256) : cell v = ⟨(v + 128#32).toNat, h⟩ :=
  Fin.ext (Nat.mod_eq_of_lt h)

/-- One entry of the result: row `b` of the quantised activations against row `o` of the quantised weights through the table. -/
def entry (xq : (⟨2, ![1024, 512]⟩ : Shape).Idx → BitVec 32) (wq : (⟨2, ![512, 512]⟩ : Shape).Idx → BitVec 32) (sc : EReal)
    (bias : (⟨1, ![512]⟩ : Shape).Idx → EReal) (lut : (⟨2, ![256, 256]⟩ : Shape).Idx → EReal) (b : Fin 1024) (o : Fin 512) : EReal :=
  (∑ k : Fin 512, lut (ix2 (cell (xq (ix2 b k))) (cell (wq (ix2 o k))))) * sc + bias (ix1 o)

/-- The whole result array. -/
def G (xq : (⟨2, ![1024, 512]⟩ : Shape).Idx → BitVec 32) (wq : (⟨2, ![512, 512]⟩ : Shape).Idx → BitVec 32) (sc : EReal)
    (bias : (⟨1, ![512]⟩ : Shape).Idx → EReal) (lut : (⟨2, ![256, 256]⟩ : Shape).Idx → EReal) :
    (⟨2, ![1024, 512]⟩ : Shape).Idx → EReal :=
  fun i => entry xq wq sc bias lut (i 0) (i 1)

theorem G_apply (xq : (⟨2, ![1024, 512]⟩ : Shape).Idx → BitVec 32) (wq : (⟨2, ![512, 512]⟩ : Shape).Idx → BitVec 32) (sc : EReal)
    (bias : (⟨1, ![512]⟩ : Shape).Idx → EReal) (lut : (⟨2, ![256, 256]⟩ : Shape).Idx → EReal) (b : Fin 1024) (o : Fin 512) :
    G xq wq sc bias lut (ix2 b o) = entry xq wq sc bias lut b o := rfl

end Cert.Spec

end
-- ==== Proof.Val0.lean ====
/-
  The first region's result as one function: the table of looked-up rows.

  The 8 × 4 grid tiles the 512 × 512 × 256 array by 64 × 128 × 256 blocks; at the block of (i, j) the body stores, for each weight
  word v of the matching 64 × 128 block, row `cell v` of the transposed table. So the array ends holding
      H (a, b, p) = lutT (cell (wqT (a, b)), p)
  wherever the weight words are in range, which is everywhere.
-/
import proofs.«143824_j5239860101336_1_alg».proof.Proof.KI.Reg0
import proofs.«143824_j5239860101336_1_alg».proof.Proof.KPay
import proofs.«143824_j5239860101336_1_alg».proof.Proof.Spec
import Idealize.ShloMosaic.Lib.Pipeline.Value

set_option maxRecDepth 16384

noncomputable section

namespace Cert.KernelIdeal.Val0

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The weight words and the transposed table as the region finds them, and the two input blocks at a point, at their types. -/
abbrev wqT (c : Dev nD) : S512x512.Idx → BitVec 32 := V c main_v19
abbrev lutT (c : Dev nD) : S256x256.Idx → EReal := V c main_v20
abbrev blkW (c : Dev nD) (t : Fin cfg0.N) : S64x128.Idx → BitVec 32 := iblk0 V c 0 t
abbrev blkL (c : Dev nD) (t : Fin cfg0.N) : S256x256.Idx → EReal := iblk0 V c 1 t

/-- One entry of the table: the weight word at (a, b) names a row of the transposed look-up table. -/
def Hat (wqT : S512x512.Idx → BitVec 32) (lutT : S256x256.Idx → EReal) (a : Fin 512) (b : Fin 512) (p : Fin 256) : EReal :=
  lutT (ix2 (Cert.Spec.cell (wqT (ix2 a b))) p)

/-- The whole table. -/
def Hf (wqT : S512x512.Idx → BitVec 32) (lutT : S256x256.Idx → EReal) : S512x512x256.Idx → EReal :=
  fun j => Hat wqT lutT (j 0) (j 1) (j 2)

/-- The printed index maps over the grid: the weight block moves with the output block, the table stays put. -/
theorem idx_facts : ∀ t : Fin cfg0.N, win0_0.index t (0 : Fin 2) = win0_2.index t (0 : Fin 3)
    ∧ win0_0.index t (1 : Fin 2) = win0_2.index t (1 : Fin 3)
    ∧ win0_1.index t (0 : Fin 2) = 0 ∧ win0_1.index t (1 : Fin 2) = 0
    ∧ win0_2.index t (2 : Fin 3) = 0
    ∧ win0_2.index t (0 : Fin 3) ≤ 7 ∧ win0_2.index t (1 : Fin 3) ≤ 3 :=
  (by decide +kernel : ∀ t : Fin grid0.N, _)

/-- Every block of the array is some point's. -/
theorem idx_onto : ∀ (q0 : Fin 8) (q1 : Fin 4), ∃ t : Fin cfg0.N, win0_2.index t = ![q0.val, q1.val, 0] :=
  (by decide +kernel : ∀ (q0 : Fin 8) (q1 : Fin 4), ∃ t : Fin grid0.N, win0_2.index t = ![q0.val, q1.val, 0])

/-- What point `t` writes back is block `t` of the table. -/
theorem flushed_eq (c : Dev nD) (hr : ∀ x : S512x512.Idx, (wqT V c x + 128#32).toNat < 256)
    (t : Fin cfg0.N) :
    (dat0 (F := Ideal) V c).flushed 2 t
      = ((cfg0.win 2).blk t).view.read (Elt Ideal) (Hf (wqT V c) (lutT V c)) := by
  show (cfg0.win 2).cut (grid0.coords t) ((dat0 V c).after 2 t) = _
  rw [after0_2]
  unfold out0_2
  rw [View.canon_unit_zero hz3]
  simp only [View.ld_unit_zero (S := S64x128) hz2, View.ld_unit_zero (S := S256x256) hz2]
  obtain ⟨e0, e1, e2, e3, e4, e5, e6⟩ := idx_facts t
  funext y
  obtain ⟨a, b, p, rfl⟩ : ∃ (a : Fin 64) (b : Fin 128) (p : Fin 256), y = ix3 a b p := ⟨y 0, y 1, y 2, eq_ix3 y⟩
  have hb : blkW V c t (ix2 a b) = wqT V c (((cfg0.win 0).blk t).view.emb (ix2 a b)) := rfl
  have hrange : (blkW V c t (ix2 a b) + 128#32).toNat < 256 := by rw [hb]; exact hr _
  refine (Cert.KernelIdeal.Pay.pay0_apply (blkW V c t) (blkL V c t) a b p hrange).trans ?_
  show lutT V c (((cfg0.win 1).blk t).view.emb (ix2 ⟨(blkW V c t (ix2 a b) + 128#32).toNat, hrange⟩ p))
    = Hf (wqT V c) (lutT V c) (((cfg0.win 2).blk t).view.emb (ix3 a b p))
  unfold Hf Hat
  have h0 : ((cfg0.win 0).blk t).view.emb (ix2 a b)
      = ix2 ((((cfg0.win 2).blk t).view.emb (ix3 a b p)) 0) ((((cfg0.win 2).blk t).view.emb (ix3 a b p)) 1) := by
    funext d; apply Fin.ext
    match d with
    | ⟨0, _⟩ => show win0_0.index t (0 : Fin 2) * 64 + 1 * a.val = win0_2.index t (0 : Fin 3) * 64 + 1 * a.val; omega
    | ⟨1, _⟩ => show win0_0.index t (1 : Fin 2) * 128 + 1 * b.val = win0_2.index t (1 : Fin 3) * 128 + 1 * b.val; omega
  have hw : wqT V c (ix2 ((((cfg0.win 2).blk t).view.emb (ix3 a b p)) 0) ((((cfg0.win 2).blk t).view.emb (ix3 a b p)) 1))
      = blkW V c t (ix2 a b) := by rw [hb]; exact congrArg (wqT V c) h0.symm
  refine congrArg (lutT V c) ?_
  funext d; apply Fin.ext
  match d with
  | ⟨0, _⟩ =>
    show win0_1.index t (0 : Fin 2) * 256 + 1 * (blkW V c t (ix2 a b) + 128#32).toNat
      = (wqT V c (ix2 ((((cfg0.win 2).blk t).view.emb (ix3 a b p)) 0) ((((cfg0.win 2).blk t).view.emb (ix3 a b p)) 1)) + 128#32).toNat % 256
    rw [hw, Nat.mod_eq_of_lt hrange, e2]; omega
  | ⟨1, _⟩ => show win0_1.index t (1 : Fin 2) * 256 + 1 * p.val = win0_2.index t (2 : Fin 3) * 256 + 1 * p.val; omega

/-- An index of the array is in point `t`'s block iff each coordinate is in the block's range on its axis. -/
theorem mem_blk (t : Fin cfg0.N) (i : S512x512x256.Idx) :
    i ∈ ((cfg0.win 2).blk t).view.set ↔ ∀ a : Fin 3, win0_2.index t a * S64x128x256.size a ≤ (i a).val ∧ (i a).val < win0_2.index t a * S64x128x256.size a + S64x128x256.size a := by
  show i ∈ ((View.whole main_v21).slice (win0_2.rect t)).set ↔ _
  rw [View.set_slice_whole, Rect.mem_set_unit]
  exact Iff.rfl

/-- The blocks cover the array. -/
theorem cover (i : S512x512x256.Idx) :
    ∃ t : Fin cfg0.N, (cfg0.win 2).flush t = true ∧ i ∈ ((cfg0.win 2).blk t).view.set := by
  have hi0 : (i 0).val < 512 := (i 0).isLt
  have hi1 : (i 1).val < 512 := (i 1).isLt
  have hi2 : (i 2).val < 256 := (i 2).isLt
  obtain ⟨t, ht⟩ := idx_onto ⟨(i 0).val / 64, by omega⟩ ⟨(i 1).val / 128, by omega⟩
  have q0 : win0_2.index t (0 : Fin 3) = (i 0).val / 64 := congrFun ht 0
  have q1 : win0_2.index t (1 : Fin 3) = (i 1).val / 128 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 64 ≤ (i 0).val ∧ (i 0).val < win0_2.index t (0 : Fin 3) * 64 + 64; omega
  | ⟨1, _⟩ => show win0_2.index t (1 : Fin 3) * 128 ≤ (i 1).val ∧ (i 1).val < win0_2.index t (1 : Fin 3) * 128 + 128; omega
  | ⟨2, _⟩ => show win0_2.index t (2 : Fin 3) * 256 ≤ (i 2).val ∧ (i 2).val < win0_2.index t (2 : Fin 3) * 256 + 256; omega

/-- THE ARRAY after the region: the table. -/
theorem H_final (c : Dev nD) (hr : ∀ x : S512x512.Idx, (wqT V c x + 128#32).toNat < 256) :
    (dat0 (F := Ideal) V c).arrAt 2 cfg0.N = Hf (wqT V c) (lutT V c) :=
  (dat0 V c).arrAt_eq_of_cover 2 (Hf (wqT V c) (lutT V c)) (fun t _ => flushed_eq V c hr t) cover

end Cert.KernelIdeal.Val0

end
-- ==== Proof.Val1.lean ====
import proofs.«143824_j5239860101336_1_alg».proof.Proof.KI.Reg1
import proofs.«143824_j5239860101336_1_alg».proof.Proof.KPay
import proofs.«143824_j5239860101336_1_alg».proof.Proof.Spec
import Idealize.ShloMosaic.Lib.Pipeline.Value

noncomputable section

open scoped BigOperators

namespace Cert.KernelIdeal.Val1

open Cert.KernelIdeal Cert.KernelIdeal.Gen Cert.KernelIdeal.Hand Idealize.ShloMosaic Idealize.ShloMosaic.TcCoe Idealize.ShloMosaic.ValueIdx
open Idealize.ShloMosaic.Pipeline (Dat)

/-! ## The printed index maps, decided once over the grid

Point `t` has coordinates (bi, oj, k) = (t / 32, t / 8 mod 4, t mod 8). -/

theorem idx_facts : ∀ t : Fin cfg1.N,
    win1_0.index t (0 : Fin 2) = t.val % 8 ∧ win1_0.index t (1 : Fin 2) = t.val / 32
    ∧ win1_1.index t (0 : Fin 3) = t.val % 8 ∧ win1_1.index t (1 : Fin 3) = t.val / 8 % 4 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = t.val / 8 % 4
    ∧ win1_4.index t (0 : Fin 2) = t.val / 32 ∧ win1_4.index t (1 : Fin 2) = t.val / 8 % 4 :=
  (by decide +kernel : ∀ t : Fin grid1.N, _)

/-! ## The function the region computes -/

section Fn
variable (A18 : S512x1024.Idx → BitVec 32) (A21 : S512x512x256.Idx → EReal) (A23 : S1x1.Idx → EReal) (A24 : S1x512.Idx → EReal)

/-- The looked-up product at contracted position `j` for the output entry `(b, o)`: the table row of position `j` and
    column `o` at the cell the activation word at `(j, b)` names. The coordinates are naturals read modulo the extents. -/
def term (b o j : ℕ) : EReal :=
  A21 (ix3 ⟨j % 512, Nat.mod_lt _ (by norm_num)⟩ ⟨o % 512, Nat.mod_lt _ (by norm_num)⟩
    (Cert.Spec.cell (A18 (ix2 ⟨j % 512, Nat.mod_lt _ (by norm_num)⟩ ⟨b % 1024, Nat.mod_lt _ (by norm_num)⟩))))

/-- The output entry `(b, o)`: the sum over the 512 contracted positions, times the scale, plus the bias. -/
def outAt (b o : ℕ) : EReal :=
  (∑ j ∈ Finset.range 512, term A18 A21 b o j) * A23 (ix2 0 0) + A24 (ix2 0 ⟨o % 512, Nat.mod_lt _ (by norm_num)⟩)

/-- The accumulator step with the mask's cell written as the cell the word names. -/
theorem pay2_cell (x0 : Vec Ideal S64x256 .i32) (x1 : Vec Ideal S64x128x256 .bf16) (acc : Vec Ideal S256x128 .f32)
    (r : Fin 256) (n : Fin 128) (h : ∀ kk : Fin 64, (x0 (ix2 kk r) + 128#32).toNat < 256) :
    k1_pay2 (F := Ideal) x0 x1 acc (ix2 r n) = acc (ix2 r n) + ∑ kk : Fin 64, x1 (ix3 kk n (Cert.Spec.cell (x0 (ix2 kk r)))) := by
  rw [Cert.KernelIdeal.Pay.pay2_apply x0 x1 acc r n h]
  refine congrArg (acc (ix2 r n) + ·) (Finset.sum_congr rfl fun kk _ => ?_)
  rw [Cert.Spec.cell_of_lt _ (h kk)]

/-- One point's step: blocks that sit at block `(k, bi)` of the activations and `(k, oj)` of the table add the run of 64
    positions `k·64 …` to the accumulator. -/
theorem step_apply (x0 : Vec Ideal S64x256 .i32) (x1 : Vec Ideal S64x128x256 .bf16) (acc : Vec Ideal S256x128 .f32)
    (k bi oj : ℕ)
    (h0 : ∀ (kk : Fin 64) (r : Fin 256), x0 (ix2 kk r)
      = A18 (ix2 ⟨(k * 64 + kk.val) % 512, Nat.mod_lt _ (by norm_num)⟩ ⟨(bi * 256 + r.val) % 1024, Nat.mod_lt _ (by norm_num)⟩))
    (h1 : ∀ (kk : Fin 64) (n : Fin 128) (p : Fin 256), x1 (ix3 kk n p)
      = A21 (ix3 ⟨(k * 64 + kk.val) % 512, Nat.mod_lt _ (by norm_num)⟩ ⟨(oj * 128 + n.val) % 512, Nat.mod_lt _ (by norm_num)⟩ p))
    (hx : ∀ (k : Fin 512) (b : Fin 1024), (A18 (ix2 k b) + 128#32).toNat < 256)
    (i : S256x128.Idx) :
    k1_pay2 (F := Ideal) x0 x1 acc i
      = acc i + ∑ kk ∈ Finset.range 64, term A18 A21 (bi * 256 + (i 0).val) (oj * 128 + (i 1).val) (k * 64 + kk) := by
  obtain ⟨r, n, rfl⟩ : ∃ (r : Fin 256) (n : Fin 128), i = ix2 r n := ⟨i 0, i 1, eq_ix2 i⟩
  rw [pay2_cell x0 x1 acc r n (fun kk => by rw [h0]; exact hx _ _), Finset.sum_range]
  refine congrArg (acc (ix2 r n) + ·) (Finset.sum_congr rfl fun kk _ => ?_)
  rw [h1, h0]
  rfl

/-- The last step: scale and bias. -/
theorem pay3_at (v26 : Vec Ideal S1x1 .f32) (v28 : Vec Ideal S256x128 .f32) (v31 : Vec Ideal S1x128 .f32) (i : S256x128.Idx) :
    k1_pay3 (F := Ideal) v26 v28 v31 i = v28 i * v26 (ix2 0 0) + v31 (ix2 0 (i 1)) := by
  obtain ⟨r, n, rfl⟩ : ∃ (r : Fin 256) (n : Fin 128), i = ix2 r n := ⟨i 0, i 1, eq_ix2 i⟩
  exact Cert.KernelIdeal.Pay.pay3_apply v26 v28 v31 r n

end Fn

variable (V : (c : Dev nD) → (b : Ref sig .tc) → Buf (Elt Ideal) ((c : Thread nD τ).loc b)) (c : Dev nD)

/-- The arrays the region reads, at their literal types: the transposed activation words, the table rows, the scale, the bias. -/
abbrev xqT : S512x1024.Idx → BitVec 32 := V c main_v18
abbrev tabH : S512x512x256.Idx → EReal := V c main_v21
abbrev scl : S1x1.Idx → EReal := V c main_v23
abbrev biasR : S1x512.Idx → EReal := V c main_v24

/-! ## Each input block read where its array says -/

theorem blk0_apply (t : Fin cfg1.N) (kk : Fin 64) (r : Fin 256) :
    (iblk1 (F := Ideal) V c 0 t : S64x256.Idx → BitVec 32) (ix2 kk r)
      = xqT V c (ix2 ⟨(t.val % 8 * 64 + kk.val) % 512, Nat.mod_lt _ (by norm_num)⟩ ⟨(t.val / 32 * 256 + r.val) % 1024, Nat.mod_lt _ (by norm_num)⟩) := by
  have hN : t.val < 128 := Nat.lt_of_lt_of_eq t.isLt N_1
  obtain ⟨e0, e1, -⟩ := idx_facts t
  unfold iblk1
  rw [View.read_apply]
  show xqT V c (((cfg1.win 0).blk t).view.emb (ix2 kk r)) = _
  refine congrArg (xqT V c) ?_
  funext a; apply Fin.ext
  match a with
  | ⟨0, _⟩ =>
    show win1_0.index t (0 : Fin 2) * 64 + 1 * kk.val = (t.val % 8 * 64 + kk.val) % 512
    have := kk.isLt; rw [e0]; omega
  | ⟨1, _⟩ =>
    show win1_0.index t (1 : Fin 2) * 256 + 1 * r.val = (t.val / 32 * 256 + r.val) % 1024
    have := r.isLt; rw [e1]; omega

theorem blk1_apply (t : Fin cfg1.N) (kk : Fin 64) (n : Fin 128) (p : Fin 256) :
    (iblk1 (F := Ideal) V c 1 t : S64x128x256.Idx → EReal) (ix3 kk n p)
      = tabH V c (ix3 ⟨(t.val % 8 * 64 + kk.val) % 512, Nat.mod_lt _ (by norm_num)⟩ ⟨(t.val / 8 % 4 * 128 + n.val) % 512, Nat.mod_lt _ (by norm_num)⟩ p) := by
  have hN : t.val < 128 := Nat.lt_of_lt_of_eq t.isLt N_1
  obtain ⟨-, -, e0, e1, e2, -⟩ := idx_facts t
  unfold iblk1
  rw [View.read_apply]
  show tabH V c (((cfg1.win 1).blk t).view.emb (ix3 kk n p)) = _
  refine congrArg (tabH V c) ?_
  funext a; apply Fin.ext
  match a with
  | ⟨0, _⟩ =>
    show win1_1.index t (0 : Fin 3) * 64 + 1 * kk.val = (t.val % 8 * 64 + kk.val) % 512
    have := kk.isLt; rw [e0]; omega
  | ⟨1, _⟩ =>
    show win1_1.index t (1 : Fin 3) * 128 + 1 * n.val = (t.val / 8 % 4 * 128 + n.val) % 512
    have := n.isLt; rw [e1]; omega
  | ⟨2, _⟩ =>
    show win1_1.index t (2 : Fin 3) * 256 + 1 * p.val = p.val
    rw [e2]; omega

theorem blk2_apply (t : Fin cfg1.N) :
    (iblk1 (F := Ideal) V c 2 t : S1x1.Idx → EReal) (ix2 0 0) = scl V c (ix2 0 0) := by
  obtain ⟨-, -, -, -, -, e0, e1, -⟩ := idx_facts t
  unfold iblk1
  rw [View.read_apply]
  show scl V c (((cfg1.win 2).blk t).view.emb (ix2 0 0)) = _
  refine congrArg (scl V c) ?_
  funext a; apply Fin.ext
  match a with
  | ⟨0, _⟩ =>
    show win1_2.index t (0 : Fin 2) * 1 + 1 * 0 = 0
    rw [e0]
  | ⟨1, _⟩ =>
    show win1_2.index t (1 : Fin 2) * 1 + 1 * 0 = 0
    rw [e1]

theorem blk3_apply (t : Fin cfg1.N) (n : Fin 128) :
    (iblk1 (F := Ideal) V c 3 t : S1x128.Idx → EReal) (ix2 0 n)
      = biasR V c (ix2 0 ⟨(t.val / 8 % 4 * 128 + n.val) % 512, Nat.mod_lt _ (by norm_num)⟩) := by
  have hN : t.val < 128 := Nat.lt_of_lt_of_eq t.isLt N_1
  obtain ⟨-, -, -, -, -, -, -, e0, e1, -⟩ := idx_facts t
  unfold iblk1
  rw [View.read_apply]
  show biasR V c (((cfg1.win 3).blk t).view.emb (ix2 0 n)) = _
  refine congrArg (biasR V c) ?_
  funext a; apply Fin.ext
  match a with
  | ⟨0, _⟩ =>
    show win1_3.index t (0 : Fin 2) * 1 + 1 * 0 = 0
    rw [e0]
  | ⟨1, _⟩ =>
    show win1_3.index t (1 : Fin 2) * 128 + 1 * n.val = (t.val / 8 % 4 * 128 + n.val) % 512
    have := n.isLt; rw [e1]; omega

/-! ## The accumulator after each point -/

variable (hx : ∀ (k : Fin 512) (b : Fin 1024), (xqT V c (ix2 k b) + 128#32).toNat < 256)
include hx

/-- One point's step on the blocks the point reads. -/
theorem point_apply (t : Fin cfg1.N) (acc : Vec Ideal S256x128 .f32) (i : S256x128.Idx) :
    k1_pay2 (F := Ideal) (iblk1 V c 0 t) (iblk1 V c 1 t) acc i
      = acc i + ∑ kk ∈ Finset.range 64,
          term (xqT V c) (tabH V c) (t.val / 32 * 256 + (i 0).val) (t.val / 8 % 4 * 128 + (i 1).val) (t.val % 8 * 64 + kk) :=
  step_apply (xqT V c) (tabH V c) (iblk1 V c 0 t) (iblk1 V c 1 t) acc (t.val % 8) (t.val / 32) (t.val / 8 % 4)
    (blk0_apply V c t) (blk1_apply V c t) hx i

/-- After point `n`, with coordinates (bi, oj, k), the accumulator holds at `(r, n')` the sum over the first (k + 1)·64
    contracted positions for the entry `(bi·256 + r, oj·128 + n')`. -/
theorem acc_apply : ∀ (n : ℕ) (hn : n < cfg1.N) (i : S256x128.Idx),
    accAt (F := Ideal) V c n hn i
      = ∑ j ∈ Finset.range ((n % 8 + 1) * 64),
          term (xqT V c) (tabH V c) (n / 32 * 256 + (i 0).val) (n / 8 % 4 * 128 + (i 1).val) j := by
  intro n
  induction n with
  | zero =>
    intro hn i
    show k1_pay2 (F := Ideal) (iblk1 V c 0 ⟨0, hn⟩) (iblk1 V c 1 ⟨0, hn⟩) (k1_pay1 (F := Ideal)) i = _
    rw [point_apply V c hx ⟨0, hn⟩ (k1_pay1 (F := Ideal)) i, Cert.KernelIdeal.Pay.pay1_apply, zero_add]
    refine Finset.sum_congr rfl fun kk _ => ?_
    show term _ _ _ _ (0 % 8 * 64 + kk) = _
    rw [show 0 % 8 * 64 + kk = kk by omega]
  | succ m ih =>
    intro hn i
    by_cases h0 : (m + 1) % 8 = 0
    · have e : accAt (F := Ideal) V c (m + 1) hn = k1_pay2 (F := Ideal) (iblk1 V c 0 ⟨m + 1, hn⟩) (iblk1 V c 1 ⟨m + 1, hn⟩) (k1_pay1 (F := Ideal)) :=
        if_pos h0
      rw [e, point_apply V c hx ⟨m + 1, hn⟩ (k1_pay1 (F := Ideal)) i, Cert.KernelIdeal.Pay.pay1_apply, zero_add]
      show ∑ kk ∈ Finset.range 64, term _ _ _ _ ((m + 1) % 8 * 64 + kk) = _
      rw [h0]
      refine Finset.sum_congr rfl fun kk _ => ?_
      rw [show 0 * 64 + kk = kk by omega]
    · have e : accAt (F := Ideal) V c (m + 1) hn
          = k1_pay2 (F := Ideal) (iblk1 V c 0 ⟨m + 1, hn⟩) (iblk1 V c 1 ⟨m + 1, hn⟩) (accAt V c m (Nat.lt_of_succ_lt hn)) :=
        if_neg h0
      have e1 : m / 32 = (m + 1) / 32 := by omega
      have e2 : m / 8 % 4 = (m + 1) / 8 % 4 := by omega
      have e3 : m % 8 + 1 = (m + 1) % 8 := by omega
      rw [e, point_apply V c hx ⟨m + 1, hn⟩ _ i, ih (Nat.lt_of_succ_lt hn) i, e1, e2, e3]
      show _ + ∑ kk ∈ Finset.range 64, term _ _ _ _ ((m + 1) % 8 * 64 + kk) = _
      rw [show ((m + 1) % 8 + 1) * 64 = (m + 1) % 8 * 64 + 64 by ring, Finset.sum_range_add]

/-! ## The block a point writes back, and the array -/

/-- The result array as one function of the arrays the region reads. -/
abbrev outG : S1024x512.Idx → EReal :=
  fun i => outAt (xqT V c) (tabH V c) (scl V c) (biasR V c) (i 0).val (i 1).val

/-- What a point at the end of a column writes back is its block of that function. -/
theorem flushed_eq (t : Fin cfg1.N) (hf : (cfg1.win 4).flush t = true) :
    (dat1 (F := Ideal) V c).flushed 4 t = ((cfg1.win 4).blk t).view.read (Elt Ideal) (outG V c) := by
  have hN : t.val < 128 := Nat.lt_of_lt_of_eq t.isLt N_1
  have h7 : t.val % 8 = 7 := (flush1_4 t).mp hf
  obtain ⟨-, -, -, -, -, -, -, -, -, e0, e1⟩ := idx_facts t
  show (cfg1.win 4).cut (grid1.coords t) ((dat1 (F := Ideal) V c).after 4 t) = _
  rw [after1_4]
  funext j
  have hj0 : (j 0).val < 256 := (j 0).isLt
  have hj1 : (j 1).val < 128 := (j 1).isLt
  have hxi : (cfg1.win 4).xinj (grid1.coords t) j = (ix2 (⟨(j 0).val, hj0⟩ : Fin 256) (⟨(j 1).val, hj1⟩ : Fin 128) : S256x128.Idx) := by
    funext a; match a with | ⟨0, _⟩ => rfl | ⟨1, _⟩ => rfl
  show k1_pay3 (F := Ideal) (iblk1 V c 2 t) (accAt V c t.val t.isLt) (iblk1 V c 3 t) ((cfg1.win 4).xinj (grid1.coords t) j)
    = outG V c (((cfg1.win 4).blk t).view.emb j)
  rw [hxi, pay3_at, acc_apply V c hx t.val t.isLt, blk2_apply, blk3_apply, h7]
  have hemb0 : ((((cfg1.win 4).blk t).view.emb j) 0).val = t.val / 32 * 256 + (j 0).val := by
    show win1_4.index t (0 : Fin 2) * 256 + 1 * (j 0).val = _
    rw [e0]; omega
  have hemb1 : ((((cfg1.win 4).blk t).view.emb j) 1).val = t.val / 8 % 4 * 128 + (j 1).val := by
    show win1_4.index t (1 : Fin 2) * 128 + 1 * (j 1).val = _
    rw [e1]; omega
  show _ = outAt _ _ _ _ ((((cfg1.win 4).blk t).view.emb j) 0).val ((((cfg1.win 4).blk t).view.emb j) 1).val
  rw [hemb0, hemb1]
  unfold outAt
  rfl

/-- Every entry of the result array lies in the block written back at the end of its column. -/
theorem cover (i : S1024x512.Idx) :
    ∃ t : Fin cfg1.N, (cfg1.win 4).flush t = true ∧ i ∈ ((cfg1.win 4).blk t).view.set := by
  have hi0 : (i 0).val < 1024 := (i 0).isLt
  have hi1 : (i 1).val < 512 := (i 1).isLt
  have hN : cfg1.N = 128 := N_1
  obtain ⟨t, ht⟩ : ∃ t : Fin cfg1.N, t.val = ((i 0).val / 256 * 4 + (i 1).val / 128) * 8 + 7 :=
    ⟨⟨((i 0).val / 256 * 4 + (i 1).val / 128) * 8 + 7, by rw [hN]; omega⟩, rfl⟩
  obtain ⟨-, -, -, -, -, -, -, -, -, e0, e1⟩ := idx_facts t
  refine ⟨t, (flush1_4 t).mpr (by omega), ?_⟩
  show i ∈ ((View.whole main_v25).slice (win1_4.rect t)).set
  rw [View.set_slice_whole, Rect.mem_set_unit]
  intro a
  match a with
  | ⟨0, _⟩ =>
    show win1_4.index t (0 : Fin 2) * 256 ≤ (i 0).val ∧ (i 0).val < win1_4.index t (0 : Fin 2) * 256 + 256
    rw [e0]; omega
  | ⟨1, _⟩ =>
    show win1_4.index t (1 : Fin 2) * 128 ≤ (i 1).val ∧ (i 1).val < win1_4.index t (1 : Fin 2) * 128 + 128
    rw [e1]; omega

/-- the second region's result array: the looked-up products summed over the 512 contracted positions, scaled, plus the bias -/
theorem out_final :
    ((dat1 (F := Ideal) V c).arrAt 4 cfg1.N : S1024x512.Idx → EReal)
      = fun i => (∑ k : Fin 512, tabH V c (ix3 k (i 1) (Cert.Spec.cell (xqT V c (ix2 k (i 0))))))
          * scl V c (ix2 0 0) + biasR V c (ix2 0 (i 1)) := by
  refine ((dat1 (F := Ideal) V c).arrAt_eq_of_cover 4 (outG V c) (fun t hf => flushed_eq V c hx t hf) (cover V c hx)).trans ?_
  funext i
  have hi0 : (i 0).val < 1024 := (i 0).isLt
  have hi1 : (i 1).val < 512 := (i 1).isLt
  show outAt _ _ _ _ (i 0).val (i 1).val = _
  unfold outAt
  have eo : (⟨(i 1).val % 512, Nat.mod_lt _ (by norm_num)⟩ : Fin 512) = i 1 := Fin.ext (Nat.mod_eq_of_lt hi1)
  have eb : (⟨(i 0).val % 1024, Nat.mod_lt _ (by norm_num)⟩ : Fin 1024) = i 0 := Fin.ext (Nat.mod_eq_of_lt hi0)
  rw [Finset.sum_range, eo]
  refine congrArg (· * scl V c (ix2 0 0) + biasR V c (ix2 0 (i 1))) (Finset.sum_congr rfl fun k _ => ?_)
  unfold term
  have ek : (⟨k.val % 512, Nat.mod_lt _ (by norm_num)⟩ : Fin 512) = k := Fin.ext (Nat.mod_eq_of_lt k.isLt)
  rw [ek, eo, eb]

end Cert.KernelIdeal.Val1

end
-- ==== Proof.HostVal.lean ====
/-
  The kernel program's host lines read at an index, over the extended reals.

  Before its first kernel the program computes, from the activations and from the weights, a scale and an array of
  quantised words by the same operations, in the same order, as the reference: absolute value, maximum, division by 127,
  a floor of 1e-8, division by the scale, rounding to even, clipping to [-128, 127], conversion to integers. So each such
  buffer holds the reference's stage of the same argument, as whole arrays. The arrays the kernels are given are then
  transposes: entry (i, b) of the transposed activations is the reference's word (b, i), likewise the weights and the
  table. Between the kernels the product of the two scales is laid out as a 1×1 array and the bias as one row.
-/
import proofs.«143824_j5239860101336_1_alg».proof.Proof.Gen.KernelIdeal.Regions
import proofs.«143824_j5239860101336_1_alg».proof.Proof.Gen.ReferenceIdeal.Read
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.HostVal

open Cert.KernelIdeal Cert.KernelIdeal.Gen Idealize.ShloMosaic Idealize.ShloMosaic.TcCoe Idealize.ShloMosaic.ValueIdx

section BeforeFirstKernel

variable (m : (ℓ : Loc nD τ sig) → Buf (Elt Ideal) ℓ) (c : Dev nD)

/-! ## The activations: scale, quantised words -/

theorem V1_v3 : (V1 (F := Ideal) m c main_v3 : S_.Idx → EReal)
    = Cert.ReferenceIdeal.Read.val_main_v3 (F := Ideal) (m ((c : Thread nD τ).loc main_arg0)) := by
  show StableHlo.after hostOps0 (V0 m c) (Proc.devRef .tc main_v3) = _
  after_results
  rfl

theorem V5_v8 : (V5 (F := Ideal) m c main_v8 : S1024x512.Idx → BitVec 32)
    = Cert.ReferenceIdeal.Read.val_main_v8 (F := Ideal) (m ((c : Thread nD τ).loc main_arg0)) := by
  show StableHlo.after hostOps0_4 (V4 m c) (Proc.devRef .tc main_v8) = _
  after_results
  rfl

/-! ## The weights: scale, quantised words -/

theorem V5_v12 : (V5 (F := Ideal) m c main_v12 : S_.Idx → EReal)
    = Cert.ReferenceIdeal.Read.val_main_v12 (F := Ideal) (m ((c : Thread nD τ).loc main_arg1)) := by
  show StableHlo.after hostOps0_4 (V4 m c) (Proc.devRef .tc main_v12) = _
  after_results
  rfl

theorem V8_v16 : (V8 (F := Ideal) m c main_v16 : S512x512.Idx → EReal)
    = Cert.ReferenceIdeal.Read.val_main_v16 (F := Ideal) (m ((c : Thread nD τ).loc main_arg1)) := by
  show StableHlo.after hostOps0_7 (V7 m c) (Proc.devRef .tc main_v16) = _
  after_results
  rfl

/-! ## Carried to the first kernel's launch -/

theorem V9_v3 : (V9 (F := Ideal) m c main_v3 : S_.Idx → EReal)
    = Cert.ReferenceIdeal.Read.val_main_v3 (F := Ideal) (m ((c : Thread nD τ).loc main_arg0)) :=
  (V9_of m c main_v3 (by decide)).trans <| (V8_of m c main_v3 (by decide)).trans <| (V7_of m c main_v3 (by decide)).trans <|
    (V6_of m c main_v3 (by decide)).trans <| (V5_of m c main_v3 (by decide)).trans <| (V4_of m c main_v3 (by decide)).trans <|
    (V3_of m c main_v3 (by decide)).trans <| (V2_of m c main_v3 (by decide)).trans (V1_v3 m c)

theorem V9_v8 : (V9 (F := Ideal) m c main_v8 : S1024x512.Idx → BitVec 32)
    = Cert.ReferenceIdeal.Read.val_main_v8 (F := Ideal) (m ((c : Thread nD τ).loc main_arg0)) :=
  (V9_of m c main_v8 (by decide)).trans <| (V8_of m c main_v8 (by decide)).trans <| (V7_of m c main_v8 (by decide)).trans <|
    (V6_of m c main_v8 (by decide)).trans (V5_v8 m c)

theorem V9_v12 : (V9 (F := Ideal) m c main_v12 : S_.Idx → EReal)
    = Cert.ReferenceIdeal.Read.val_main_v12 (F := Ideal) (m ((c : Thread nD τ).loc main_arg1)) :=
  (V9_of m c main_v12 (by decide)).trans <| (V8_of m c main_v12 (by decide)).trans <| (V7_of m c main_v12 (by decide)).trans <|
    (V6_of m c main_v12 (by decide)).trans (V5_v12 m c)

/-! ## The last stretch before the first kernel: three transposes -/

/-- What the stretch of the three transposes writes, over any contents before it. -/
theorem stretch8_v18 (W : Valuation τ sig (Elt Ideal)) :
    (StableHlo.after hostOps0_8 W (Proc.devRef .tc main_v18) : S512x1024.Idx → BitVec 32)
      = transpose S512x1024 [1, 0] (W (Proc.devRef .tc main_v8) : S1024x512.Idx → BitVec 32) transposes_S1024x512_S512x1024_1_0 := by
  after_results

theorem V9_v18 : (V9 (F := Ideal) m c main_v18 : S512x1024.Idx → BitVec 32)
    = transpose S512x1024 [1, 0] (Cert.ReferenceIdeal.Read.val_main_v8 (F := Ideal) (m ((c : Thread nD τ).loc main_arg0)))
        transposes_S1024x512_S512x1024_1_0 :=
  (stretch8_v18 (V8 m c)).trans (congrArg (fun y : S1024x512.Idx → BitVec 32 => transpose S512x1024 [1, 0] y transposes_S1024x512_S512x1024_1_0)
    ((V8_of m c main_v8 (by decide)).trans <| (V7_of m c main_v8 (by decide)).trans <| (V6_of m c main_v8 (by decide)).trans (V5_v8 m c)))

theorem stretch8_v17 (W : Valuation τ sig (Elt Ideal)) :
    (StableHlo.after hostOps0_8 W (Proc.devRef .tc main_v17) : S512x512.Idx → BitVec 32)
      = fptosi (F := Ideal) (s := S512x512) (φ := .f32) 32 (W (Proc.devRef .tc main_v16)) := by
  after_results

theorem V9_v17 : (V9 (F := Ideal) m c main_v17 : S512x512.Idx → BitVec 32)
    = Cert.ReferenceIdeal.Read.val_main_v17 (F := Ideal) (m ((c : Thread nD τ).loc main_arg1)) :=
  (stretch8_v17 (V8 m c)).trans (congrArg (fun y : FVec Ideal S512x512 .f32 => fptosi (F := Ideal) 32 y) (V8_v16 m c))

theorem stretch8_v19 (W : Valuation τ sig (Elt Ideal)) :
    (StableHlo.after hostOps0_8 W (Proc.devRef .tc main_v19) : S512x512.Idx → BitVec 32)
      = transpose S512x512 [1, 0] (fptosi (F := Ideal) (s := S512x512) (φ := .f32) 32 (W (Proc.devRef .tc main_v16))) transposes_S512x512_S512x512_1_0 := by
  after_results

theorem stretch8_v20 (W : Valuation τ sig (Elt Ideal)) :
    (StableHlo.after hostOps0_8 W (Proc.devRef .tc main_v20) : S256x256.Idx → EReal)
      = transpose S256x256 [1, 0] (W (Proc.devRef .tc main_arg3) : S256x256.Idx → EReal) transposes_S256x256_S256x256_1_0 := by
  after_results

theorem V9_v19 : (V9 (F := Ideal) m c main_v19 : S512x512.Idx → BitVec 32)
    = transpose S512x512 [1, 0] (Cert.ReferenceIdeal.Read.val_main_v17 (F := Ideal) (m ((c : Thread nD τ).loc main_arg1)))
        transposes_S512x512_S512x512_1_0 :=
  (stretch8_v19 (V8 m c)).trans (congrArg (fun y : FVec Ideal S512x512 .f32 => transpose S512x512 [1, 0] (fptosi (F := Ideal) 32 y) transposes_S512x512_S512x512_1_0)
    (V8_v16 m c))

theorem V8_arg3 : (V8 (F := Ideal) m c main_arg3 : S256x256.Idx → EReal) = m ((c : Thread nD τ).loc main_arg3) :=
  (V8_of m c main_arg3 (by decide)).trans <| (V7_of m c main_arg3 (by decide)).trans <| (V6_of m c main_arg3 (by decide)).trans <|
    (V5_of m c main_arg3 (by decide)).trans <| (V4_of m c main_arg3 (by decide)).trans <| (V3_of m c main_arg3 (by decide)).trans <|
    (V2_of m c main_arg3 (by decide)).trans <| (V1_of m c main_arg3 (by decide)).trans rfl

theorem V9_v20 : (V9 (F := Ideal) m c main_v20 : S256x256.Idx → EReal)
    = transpose S256x256 [1, 0] (m ((c : Thread nD τ).loc main_arg3) : S256x256.Idx → EReal) transposes_S256x256_S256x256_1_0 :=
  (stretch8_v20 (V8 m c)).trans (congrArg (fun y : S256x256.Idx → EReal => transpose S256x256 [1, 0] y transposes_S256x256_S256x256_1_0)
    (V8_arg3 m c))

theorem v18_apply (i : Fin 512) (b : Fin 1024) :
    (V9 (F := Ideal) m c main_v18 : S512x1024.Idx → BitVec 32) (ix2 i b)
      = Cert.ReferenceIdeal.Read.val_main_v8 (F := Ideal) (m ((c : Thread nD τ).loc main_arg0)) (ix2 b i) := by
  rw [V9_v18]
  exact transpose_ix2_apply _ transposes_S1024x512_S512x1024_1_0 i b

theorem v19_apply (i : Fin 512) (o : Fin 512) :
    (V9 (F := Ideal) m c main_v19 : S512x512.Idx → BitVec 32) (ix2 i o)
      = Cert.ReferenceIdeal.Read.val_main_v17 (F := Ideal) (m ((c : Thread nD τ).loc main_arg1)) (ix2 o i) := by
  rw [V9_v19]
  exact transpose_ix2_apply _ transposes_S512x512_S512x512_1_0 i o

theorem v20_apply (q p : Fin 256) :
    (V9 (F := Ideal) m c main_v20 : S256x256.Idx → EReal) (ix2 q p) = m ((c : Thread nD τ).loc main_arg3) (ix2 p q) := by
  rw [V9_v20]
  exact transpose_ix2_apply _ transposes_S256x256_S256x256_1_0 q p

end BeforeFirstKernel

/-! ## The stretch between the kernels: the product of the scales and the bias, reshaped -/

theorem tail_v23 (W : Valuation τ sig (Elt Ideal)) :
    (StableHlo.after hostOps1 W (Proc.devRef .tc main_v23) : S1x1.Idx → EReal)
      = shapeCast S1x1 (mulf (F := Ideal) (s := S_) (φ := .f32) (W (Proc.devRef .tc main_v3)) (W (Proc.devRef .tc main_v12))) shapeCasts_S_S1x1 := by
  after_results
  rfl

theorem tail_v24 (W : Valuation τ sig (Elt Ideal)) :
    (StableHlo.after hostOps1 W (Proc.devRef .tc main_v24) : S1x512.Idx → EReal)
      = shapeCast S1x512 (W (Proc.devRef .tc main_arg2) : S512.Idx → EReal) shapeCasts_S512_S1x512 := by
  after_results
  rfl

theorem V10_arg2 (m : (ℓ : Loc nD τ sig) → Buf (Elt Ideal) ℓ) (outs : Outs (F := Ideal)) (c : Dev nD) : (V10 (F := Ideal) m outs c main_arg2 : S512.Idx → EReal) = m ((c : Thread nD τ).loc main_arg2) :=
  (V10_of m outs c main_arg2 (by decide)).trans <| (V9_of m c main_arg2 (by decide)).trans <| (V8_of m c main_arg2 (by decide)).trans <|
    (V7_of m c main_arg2 (by decide)).trans <| (V6_of m c main_arg2 (by decide)).trans <| (V5_of m c main_arg2 (by decide)).trans <|
    (V4_of m c main_arg2 (by decide)).trans <| (V3_of m c main_arg2 (by decide)).trans <| (V2_of m c main_arg2 (by decide)).trans <|
    (V1_of m c main_arg2 (by decide)).trans rfl

theorem v23_apply (m : (ℓ : Loc nD τ sig) → Buf (Elt Ideal) ℓ) (outs : Outs (F := Ideal)) (c : Dev nD) :
    (V11 (F := Ideal) m outs c main_v23 : S1x1.Idx → EReal) (ix2 0 0)
      = Cert.ReferenceIdeal.Read.val_main_v38 (F := Ideal) (m ((c : Thread nD τ).loc main_arg0)) (m ((c : Thread nD τ).loc main_arg1)) ix0 := by
  have e : (V11 (F := Ideal) m outs c main_v23 : S1x1.Idx → EReal)
      = shapeCast S1x1 (Cert.ReferenceIdeal.Read.val_main_v38 (F := Ideal) (m ((c : Thread nD τ).loc main_arg0)) (m ((c : Thread nD τ).loc main_arg1)))
          shapeCasts_S_S1x1 :=
    (tail_v23 (V10 m outs c)).trans (congrArg₂ (fun a b : FVec Ideal S_ .f32 => shapeCast S1x1 (mulf (F := Ideal) a b) shapeCasts_S_S1x1)
      ((V10_of m outs c main_v3 (by decide)).trans (V9_v3 m c)) ((V10_of m outs c main_v12 (by decide)).trans (V9_v12 m c)))
  rw [e]
  unfold shapeCast
  exact congrArg _ (eq_ix0 _)

theorem v24_apply (m : (ℓ : Loc nD τ sig) → Buf (Elt Ideal) ℓ) (outs : Outs (F := Ideal)) (c : Dev nD) (o : Fin 512) :
    (V11 (F := Ideal) m outs c main_v24 : S1x512.Idx → EReal) (ix2 0 o) = m ((c : Thread nD τ).loc main_arg2) (ix1 o) := by
  have e : (V11 (F := Ideal) m outs c main_v24 : S1x512.Idx → EReal)
      = shapeCast S1x512 (m ((c : Thread nD τ).loc main_arg2) : S512.Idx → EReal) shapeCasts_S512_S1x512 :=
    (tail_v24 (V10 m outs c)).trans (congrArg (fun y : S512.Idx → EReal => shapeCast S1x512 y shapeCasts_S512_S1x512) (V10_arg2 m outs c))
  rw [e]
  exact shapeCast_a_1a_apply _ shapeCasts_S512_S1x512 0 o

end Cert.KernelIdeal.HostVal

end
-- ==== Proof.RefRange.lean ====
import proofs.«143824_j5239860101336_1_alg».proof.Proof.Gen.ReferenceIdeal.Read
import proofs.«143824_j5239860101336_1_alg».proof.Proof.Spec

noncomputable section

namespace Cert.ReferenceIdeal.RefValue

open Cert.ReferenceIdeal Cert.ReferenceIdeal.Read Idealize.ShloMosaic Idealize.ShloMosaic.ValueIdx

/-- An extended real between -128 and 127, rounded toward zero and clamped to a range that contains [-128, 127],
    is an integer between -128 and 127. -/
theorem toIntClamped_mem (lo hi : Int) (hlo : lo ≤ -128) (hhi : 127 ≤ hi) (z : EReal)
    (h1 : ((-128 : ℝ) : EReal) ≤ z) (h2 : z ≤ ((127 : ℝ) : EReal)) :
    -128 ≤ Ideal.toIntClamped lo hi z ∧ Ideal.toIntClamped lo hi z ≤ 127 := by
  induction z using EReal.rec with
  | bot => exact absurd (le_bot_iff.mp h1) (EReal.coe_ne_bot _)
  | top => exact absurd (top_le_iff.mp h2) (EReal.coe_ne_top _)
  | coe r =>
    have h1' : (-128 : ℝ) ≤ r := EReal.coe_le_coe_iff.mp h1
    have h2' : r ≤ (127 : ℝ) := EReal.coe_le_coe_iff.mp h2
    rw [Ideal.toIntClamped_coe]
    have ht : -128 ≤ (if 0 ≤ r then ⌊r⌋ else ⌈r⌉) ∧ (if 0 ≤ r then ⌊r⌋ else ⌈r⌉) ≤ 127 := by
      split
      · refine ⟨?_, ?_⟩
        · rw [Int.le_floor]; exact_mod_cast h1'
        · have := (Int.floor_le r).trans h2'; exact_mod_cast this
      · refine ⟨?_, ?_⟩
        · have := h1'.trans (Int.le_ceil r); exact_mod_cast this
        · rw [Int.ceil_le]; exact_mod_cast h2'
    omega

/-- A 32-bit word made from an integer between -128 and 127, shifted by 128, is below 256. -/
theorem ofInt_add_lt (n : Int) (h1 : -128 ≤ n) (h2 : n ≤ 127) : (BitVec.ofInt 32 n + 128#32).toNat < 256 := by
  rw [BitVec.toNat_add, BitVec.toNat_ofInt, BitVec.toNat_ofNat]
  omega

/-- Clipping to [-128, 127] and converting to a 32-bit integer gives a word that, shifted by 128, is below 256. -/
theorem clip_word_lt (y : EReal) :
    (Ideal.fptosi 32 (min (((127#32 : BitVec 32).toInt : ℝ) : EReal) (max ((((4294967168#32 : BitVec 32).toInt : ℝ)) : EReal) y)) + 128#32).toNat < 256 := by
  have e1 : ((127#32 : BitVec 32).toInt : ℝ) = 127 := by
    have h : (127#32 : BitVec 32).toInt = 127 := by decide
    rw [h]; norm_num
  have e2 : ((4294967168#32 : BitVec 32).toInt : ℝ) = -128 := by
    have h : (4294967168#32 : BitVec 32).toInt = -128 := by decide
    rw [h]; norm_num
  rw [e1, e2]
  unfold Ideal.fptosi
  have hz := toIntClamped_mem (-((2 ^ (32 - 1) : Nat) : Int)) (((2 ^ (32 - 1) : Nat) : Int) - 1) (by norm_num) (by norm_num)
    (min ((127 : ℝ) : EReal) (max ((-128 : ℝ) : EReal) y))
    (le_min (EReal.coe_le_coe_iff.mpr (by norm_num)) (le_max_left _ _))
    (min_le_left _ _)
  exact ofInt_add_lt _ hz.1 hz.2

theorem xq_range (x0 : (⟨S1024x512, .f32⟩ : BufTy).Contents (Elt Ideal)) (i : S1024x512.Idx) :
    (val_main_v8 (F := Ideal) x0 i + 128#32).toNat < 256 := by
  rw [val_main_v8_apply, val_main_v7_apply, val_main_call1_v4_apply, val_main_call1_v3_apply, val_main_c_2_apply,
    val_main_call1_v2_apply, val_main_call1_v1_apply, val_main_call1_v0_apply, val_main_c_apply]
  exact clip_word_lt _

theorem wq_range (x1 : (⟨S512x512, .f32⟩ : BufTy).Contents (Elt Ideal)) (i : S512x512.Idx) :
    (val_main_v17 (F := Ideal) x1 i + 128#32).toNat < 256 := by
  rw [val_main_v17_apply, val_main_v16_apply, val_main_call3_v4_apply, val_main_call3_v3_apply, val_main_c_7_apply,
    val_main_call3_v2_apply, val_main_call3_v1_apply, val_main_call3_v0_apply, val_main_c_6_apply]
  exact clip_word_lt _

end Cert.ReferenceIdeal.RefValue

end
-- ==== Proof.RefG.lean ====
import proofs.«143824_j5239860101336_1_alg».proof.Proof.RefRange

noncomputable section

namespace Cert.ReferenceIdeal.RefValue

open Cert.ReferenceIdeal Cert.ReferenceIdeal.Read Idealize.ShloMosaic Idealize.ShloMosaic.ValueIdx
open Cert.ReferenceIdeal.Gen

/-! ## The index word -/

/-- The table index word: two shifted words below 256 packed as a·256 + c, in 32-bit arithmetic. -/
def packWord (u v : BitVec 32) : BitVec 32 :=
  IntOp.addi (IntOp.muli (IntOp.addi u 128#32) 256#32) (IntOp.addi v 128#32)

theorem packWord_toNat (u v : BitVec 32) (hu : (u + 128#32).toNat < 256) (hv : (v + 128#32).toNat < 256) :
    (packWord u v).toNat = (u + 128#32).toNat * 256 + (v + 128#32).toNat := by
  unfold packWord IntOp.addi IntOp.muli
  generalize u + 128#32 = a at hu ⊢
  generalize v + 128#32 = c at hv ⊢
  rw [BitVec.toNat_add, BitVec.toNat_mul, BitVec.toNat_ofNat]
  omega

theorem packWord_toInt (u v : BitVec 32) (hu : (u + 128#32).toNat < 256) (hv : (v + 128#32).toNat < 256) :
    (packWord u v).toInt = (((u + 128#32).toNat * 256 + (v + 128#32).toNat : Nat) : Int) := by
  rw [BitVec.toInt_eq_toNat_cond, packWord_toNat u v hu hv, if_pos (by omega)]

/-- The packed word is not negative read signed, so the index normalisation leaves it as it is. -/
theorem packWord_select (u v : BitVec 32) (hu : (u + 128#32).toNat < 256) (hv : (v + 128#32).toNat < 256) :
    Scalar.select (IntOp.cmpi .slt (packWord u v) 0#32) (IntOp.addi (packWord u v) 65536#32) (packWord u v)
      = packWord u v := by
  have h : IntOp.cmpi .slt (packWord u v) 0#32 = 0#1 := by
    unfold IntOp.cmpi
    show BitVec.ofBool ((packWord u v).slt 0#32) = 0#1
    have : (packWord u v).slt 0#32 = false := by
      rw [BitVec.slt, packWord_toInt u v hu hv, BitVec.toInt_zero]
      exact decide_eq_false (not_lt.mpr (Int.natCast_nonneg _))
    rw [this]; rfl
  rw [h]; exact select_zero _ _

/-! ## The gather read at an index -/

section Gather
variable {α : Type}

/-- The start-indices index `[b, o, k, 0]` of result index `(b, o, k)`. -/
abbrev gIdx (y : S1024x512x512.Idx) : S1024x512x512x1.Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => ⟨0, Nat.one_pos⟩

/-- The gather read at `(b, o, k)`: the flat operand at the start index `idx[b, o, k, 0]`, read signed and clamped
    into `[0, 65535]`. -/
theorem gather_apply {w : Nat} (x : S65536.Idx → α) (idx : IVec S1024x512x512x1 w) (y : S1024x512x512.Idx) :
    Host.gather gather_S65536_S1024x512x512x1_S1024x512x512_n_0_n_n_0_3_1 x idx y
      = x (ix1 ⟨min (idx (gIdx y)).toInt.toNat (65536 - 1), by omega⟩) := by
  unfold Host.gather
  congr 1
  funext a
  obtain rfl : a = 0 := Subsingleton.elim _ _
  refine Fin.ext ?_
  show gather_S65536_S1024x512x512x1_S1024x512x512_n_0_n_n_0_3_1.start y idx 0
      + gather_S65536_S1024x512x512x1_S1024x512x512_n_0_n_n_0_3_1.batchCoord y 0
      + gather_S65536_S1024x512x512x1_S1024x512x512_n_0_n_n_0_3_1.offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S65536_S1024x512x512x1_S1024x512x512_n_0_n_n_0_3_1.startIndexMap
    from List.mem_singleton.mpr rfl)]
  have hsi : gather_S65536_S1024x512x512x1_S1024x512x512_n_0_n_n_0_3_1.siIdx y
      ⟨List.idxOf (0 : Fin 1) gather_S65536_S1024x512x512x1_S1024x512x512_n_0_n_n_0_3_1.startIndexMap,
        List.idxOf_lt_length_iff.2 (List.mem_singleton.mpr rfl)⟩ = gIdx y := by
    funext b; refine Fin.ext ?_
    match b with
    | ⟨0, _⟩ => rfl
    | ⟨1, _⟩ => rfl
    | ⟨2, _⟩ => rfl
    | ⟨3, _⟩ => rfl
  rw [hsi]
  rfl

/-- The same, at a flat position already known to be the clamped start index. -/
theorem gather_apply_of_eq {w : Nat} (x : S65536.Idx → α) (idx : IVec S1024x512x512x1 w) (y : S1024x512x512.Idx)
    (n : Fin 65536) (hn : n.val = min (idx (gIdx y)).toInt.toNat (65536 - 1)) :
    Host.gather gather_S65536_S1024x512x512x1_S1024x512x512_n_0_n_n_0_3_1 x idx y = x (ix1 n) := by
  rw [gather_apply]
  exact congrArg x (congrArg ix1 (Fin.ext hn.symm))

end Gather

/-! ## The reference's stages at an index -/

section Stages
variable (x0 : (⟨S1024x512, .f32⟩ : BufTy).Contents (Elt Ideal)) (x1 : (⟨S512x512, .f32⟩ : BufTy).Contents (Elt Ideal))
  (x3 : (⟨S256x256, .f32⟩ : BufTy).Contents (Elt Ideal))

/-- The raw index word at `(b, o, k)` packs the quantised activation at `(b, k)` and the quantised weight at `(o, k)`. -/
theorem v29_apply (b : Fin 1024) (o k : Fin 512) :
    val_main_v29 (F := Ideal) x0 x1 (ix3 b o k)
      = packWord (val_main_v8 (F := Ideal) x0 (ix2 b k)) (val_main_v17 (F := Ideal) x1 (ix2 o k)) := by
  rw [val_main_v29_apply, val_main_v27_apply, val_main_v23_apply, val_main_v21_apply, val_main_v19_apply,
    val_main_v20_apply, val_main_c_8_apply, val_main_v22_apply, val_main_c_9_apply, val_main_v28_apply,
    val_main_v26_apply, val_main_v24_apply, val_main_v25_apply, val_main_c_10_apply]
  have e1 : idx_main_v19 (idx_main_v27 (ix3 b o k)) = ix2 b k := by
    funext a; match a with | ⟨0, _⟩ => rfl | ⟨1, _⟩ => rfl
  have e2 : idx_main_v24 (idx_main_v28 (ix3 b o k)) = ix2 o k := by
    funext a; match a with | ⟨0, _⟩ => rfl | ⟨1, _⟩ => rfl
  rw [e1, e2]
  rfl

/-- The normalised index word is the raw one: it is not negative. -/
theorem v34_apply (b : Fin 1024) (o k : Fin 512) :
    val_main_v34 (F := Ideal) x0 x1 (ix3 b o k)
      = packWord (val_main_v8 (F := Ideal) x0 (ix2 b k)) (val_main_v17 (F := Ideal) x1 (ix2 o k)) := by
  rw [val_main_v34_apply, val_main_v31_apply, val_main_v33_apply, val_main_v30_apply, val_main_c_11_apply,
    val_main_v32_apply, val_main_c_12_apply, v29_apply]
  exact packWord_select _ _ (xq_range x0 _) (wq_range x1 _)

/-- The gathered element at `(b, o, k)` is the table at the cells the two quantised words name. -/
theorem v36_apply (b : Fin 1024) (o k : Fin 512) :
    val_main_v36 (F := Ideal) x0 x1 x3 (ix3 b o k)
      = x3 (ix2 (Cert.Spec.cell (val_main_v8 (F := Ideal) x0 (ix2 b k))) (Cert.Spec.cell (val_main_v17 (F := Ideal) x1 (ix2 o k)))) := by
  have hu := xq_range x0 (ix2 b k)
  have hv := wq_range x1 (ix2 o k)
  have e : idx_main_v35 (gIdx (ix3 b o k)) = ix3 b o k := by
    funext a; match a with | ⟨0, _⟩ => rfl | ⟨1, _⟩ => rfl | ⟨2, _⟩ => rfl
  have hw : val_main_v35 (F := Ideal) x0 x1 (gIdx (ix3 b o k))
      = packWord (val_main_v8 (F := Ideal) x0 (ix2 b k)) (val_main_v17 (F := Ideal) x1 (ix2 o k)) := by
    rw [val_main_v35_apply, e, v34_apply]
  have hn : (val_main_v8 (F := Ideal) x0 (ix2 b k) + 128#32).toNat * 256 + (val_main_v17 (F := Ideal) x1 (ix2 o k) + 128#32).toNat
      = min (val_main_v35 (F := Ideal) x0 x1 (gIdx (ix3 b o k))).toInt.toNat (65536 - 1) := by
    rw [hw, packWord_toInt _ _ hu hv, Int.toNat_natCast]; omega
  unfold val_main_v36
  rw [gather_apply_of_eq _ _ _
    ⟨(val_main_v8 (F := Ideal) x0 (ix2 b k) + 128#32).toNat * 256 + (val_main_v17 (F := Ideal) x1 (ix2 o k) + 128#32).toNat, by omega⟩
    hn, val_main_v18_apply]
  refine congrArg x3 ?_
  funext a
  match a with
  | ⟨0, _⟩ =>
    refine Fin.ext ?_
    show ((val_main_v8 (F := Ideal) x0 (ix2 b k) + 128#32).toNat * 256 + (val_main_v17 (F := Ideal) x1 (ix2 o k) + 128#32).toNat) / 256
      = (val_main_v8 (F := Ideal) x0 (ix2 b k) + 128#32).toNat % 256
    omega
  | ⟨1, _⟩ =>
    refine Fin.ext ?_
    show ((val_main_v8 (F := Ideal) x0 (ix2 b k) + 128#32).toNat * 256 + (val_main_v17 (F := Ideal) x1 (ix2 o k) + 128#32).toNat) % 256
      = (val_main_v17 (F := Ideal) x1 (ix2 o k) + 128#32).toNat % 256
    omega

end Stages

/-- the reference's result is the specification at its own quantised words and scale -/
theorem ref_is_G (x0 : (⟨S1024x512, .f32⟩ : BufTy).Contents (Elt Ideal)) (x1 : (⟨S512x512, .f32⟩ : BufTy).Contents (Elt Ideal))
    (x2 : (⟨S512, .f32⟩ : BufTy).Contents (Elt Ideal)) (x3 : (⟨S256x256, .f32⟩ : BufTy).Contents (Elt Ideal)) :
    val_main_v43 (F := Ideal) x0 x1 x2 x3
      = Cert.Spec.G (val_main_v8 (F := Ideal) x0) (val_main_v17 (F := Ideal) x1) (val_main_v38 (F := Ideal) x0 x1 ix0) x2 x3 := by
  funext i
  obtain ⟨b, o, rfl⟩ : ∃ (b : Fin 1024) (o : Fin 512), i = ix2 b o := ⟨i 0, i 1, eq_ix2 i⟩
  rw [Cert.Spec.G_apply]
  unfold Cert.Spec.entry
  rw [val_main_v43_apply, val_main_v40_apply, val_main_v42_apply, val_main_v41_apply, val_main_v39_apply,
    val_main_v37_apply, val_main_cst_13_apply]
  have eb : idx_main_v41 (idx_main_v42 (ix2 b o)) = ix1 o := by
    funext a; match a with | ⟨0, _⟩ => rfl
  have ek : ∀ k : Fin 512, idx_main_v37 (ix2 b o) k = ix3 b o k := by
    intro k; funext a; match a with | ⟨0, _⟩ => rfl | ⟨1, _⟩ => rfl | ⟨2, _⟩ => rfl
  rw [eb]
  simp only [ek, v36_apply]
  show (Ideal.ofBits .f32 0x00000000#32 + _) * _ + _ = _
  rw [Ideal.ofBits_zero_f32, zero_add]

end Cert.ReferenceIdeal.RefValue

end
-- ==== Proof.Bridge.lean ====
/-
  The kernel program's result array is the specification.

  The second region's array is (Σ_k H(k, o, cell xqT(k, b))) · scale + bias(o) of the arrays it is entered with; of these, H is
  the first region's table lutT(cell wqT(k, o), ·), untouched by the host lines between the regions; xqT, wqT and lutT are the
  transposes of the quantised activations, the quantised weights and the table, which the host lines compute exactly as the
  reference does; the scale is the product of the two quantisation steps and the bias row is the bias. Term by term the sum is
  lut(cell xq(b,k), cell wq(o,k)).
-/
import proofs.«143824_j5239860101336_1_alg».proof.Proof.KI.RunVal
import proofs.«143824_j5239860101336_1_alg».proof.Proof.Val0
import proofs.«143824_j5239860101336_1_alg».proof.Proof.Val1
import proofs.«143824_j5239860101336_1_alg».proof.Proof.HostVal
import proofs.«143824_j5239860101336_1_alg».proof.Proof.RefG

set_option maxRecDepth 16384

noncomputable section

namespace Cert.KernelIdeal.Bridge

open Cert.KernelIdeal Cert.KernelIdeal.Gen Cert.KernelIdeal.Hand
open Idealize.ShloMosaic Idealize.ShloMosaic.TcCoe Idealize.ShloMosaic.ValueIdx
open Idealize.SL Idealize.SL.Sem
open Cert.ReferenceIdeal.Read (val_main_v8 val_main_v17 val_main_v38)

variable (m : (ℓ : Loc nD τ sig) → Buf (Elt Ideal) ℓ)

/-- The specification at the kernel program's own arguments: the quantised words and the scale are the reference's stages of
    them. -/
def spec (c : Dev nD) : Buf (Elt Ideal) ((c.tc : Thread nD τ).loc main_v25) :=
  Cert.Spec.G (val_main_v8 (F := Ideal) (m ((c.tc : Thread nD τ).loc main_arg0))) (val_main_v17 (F := Ideal) (m ((c.tc : Thread nD τ).loc main_arg1)))
    (val_main_v38 (F := Ideal) (m ((c.tc : Thread nD τ).loc main_arg0)) (m ((c.tc : Thread nD τ).loc main_arg1)) ix0)
    (m ((c.tc : Thread nD τ).loc main_arg2)) (m ((c.tc : Thread nD τ).loc main_arg3))

/-- The activation words the second region reads are the first stretch's, transposed. -/
theorem xqT_apply (c : Dev nD) (k : Fin 512) (b : Fin 1024) :
    Val1.xqT (VB m) c (ix2 k b) = val_main_v8 (F := Ideal) (m ((c.tc : Thread nD τ).loc main_arg0)) (ix2 b k) :=
  (congrFun ((V11_of m (outsA m) c main_v18 (by decide)).trans (V10_of m (outsA m) c main_v18 (by decide))) (ix2 k b)).trans
    (Cert.KernelIdeal.HostVal.v18_apply m c k b)

theorem wqT_apply (c : Dev nD) (k : Fin 512) (o : Fin 512) :
    Val0.wqT (VA m) c (ix2 k o) = val_main_v17 (F := Ideal) (m ((c.tc : Thread nD τ).loc main_arg1)) (ix2 o k) :=
  Cert.KernelIdeal.HostVal.v19_apply m c k o

theorem lutT_apply (c : Dev nD) (q p : Fin 256) :
    Val0.lutT (VA m) c (ix2 q p) = (m ((c.tc : Thread nD τ).loc main_arg3) : S256x256.Idx → EReal) (ix2 p q) :=
  Cert.KernelIdeal.HostVal.v20_apply m c q p

/-- The weight words are in range. -/
theorem wq_in (c : Dev nD) (x : S512x512.Idx) : (Val0.wqT (VA m) c x + 128#32).toNat < 256 := by
  obtain ⟨k, o, rfl⟩ : ∃ (k : Fin 512) (o : Fin 512), x = ix2 k o := ⟨x 0, x 1, eq_ix2 x⟩
  rw [wqT_apply]; exact Cert.ReferenceIdeal.RefValue.wq_range _ _

/-- The activation words are in range. -/
theorem xq_in (c : Dev nD) (k : Fin 512) (b : Fin 1024) : (Val1.xqT (VB m) c (ix2 k b) + 128#32).toNat < 256 := by
  rw [xqT_apply]; exact Cert.ReferenceIdeal.RefValue.xq_range _ _

/-- The table the second region reads is the first region's. -/
theorem tabH_eq (c : Dev nD) : Val1.tabH (VB m) c = Val0.Hf (Val0.wqT (VA m) c) (Val0.lutT (VA m) c) := by
  have e1 : Val1.tabH (VB m) c = V10 m (outsA m) c main_v21 := V11_of m (outsA m) c main_v21 (by decide)
  have e2 : V10 m (outsA m) c main_v21 = WA m c main_v21 := by
    show Function.update (V9 m c) (Proc.devRef .tc main_v21) (outsA m 10 main_v21 c) (Proc.devRef .tc main_v21) = _
    rw [Function.update_self]; rfl
  exact e1.trans (e2.trans ((WA_arr m c 2).trans (Val0.H_final (VA m) c (wq_in m c))))

/-- One term of the sum: the table entry the second region reads is the look-up table's at the two cells. -/
theorem term_eq (c : Dev nD) (b : Fin 1024) (o : Fin 512) (k : Fin 512) :
    Val1.tabH (VB m) c (ix3 k o (Cert.Spec.cell (Val1.xqT (VB m) c (ix2 k b))))
      = (m ((c.tc : Thread nD τ).loc main_arg3) : S256x256.Idx → EReal)
          (ix2 (Cert.Spec.cell (val_main_v8 (F := Ideal) (m ((c.tc : Thread nD τ).loc main_arg0)) (ix2 b k)))
            (Cert.Spec.cell (val_main_v17 (F := Ideal) (m ((c.tc : Thread nD τ).loc main_arg1)) (ix2 o k)))) := by
  rw [tabH_eq]
  show Val0.lutT (VA m) c (ix2 (Cert.Spec.cell (Val0.wqT (VA m) c (ix2 k o))) (Cert.Spec.cell (Val1.xqT (VB m) c (ix2 k b)))) = _
  rw [lutT_apply, wqT_apply, xqT_apply]

/-- One entry of the second region's array is the specification's. -/
theorem entry_eq (c : Dev nD) (b : Fin 1024) (o : Fin 512) :
    (∑ k : Fin 512, Val1.tabH (VB m) c (ix3 k o (Cert.Spec.cell (Val1.xqT (VB m) c (ix2 k b))))) * Val1.scl (VB m) c (ix2 0 0) + Val1.biasR (VB m) c (ix2 0 o)
      = Cert.Spec.entry (val_main_v8 (F := Ideal) (m ((c.tc : Thread nD τ).loc main_arg0))) (val_main_v17 (F := Ideal) (m ((c.tc : Thread nD τ).loc main_arg1)))
          (val_main_v38 (F := Ideal) (m ((c.tc : Thread nD τ).loc main_arg0)) (m ((c.tc : Thread nD τ).loc main_arg1)) ix0)
          (m ((c.tc : Thread nD τ).loc main_arg2)) (m ((c.tc : Thread nD τ).loc main_arg3)) b o := by
  unfold Cert.Spec.entry
  have hs : Val1.scl (VB m) c (ix2 0 0) = val_main_v38 (F := Ideal) (m ((c.tc : Thread nD τ).loc main_arg0)) (m ((c.tc : Thread nD τ).loc main_arg1)) ix0 :=
    Cert.KernelIdeal.HostVal.v23_apply m (outsA m) c
  have hbias : Val1.biasR (VB m) c (ix2 0 o) = (m ((c.tc : Thread nD τ).loc main_arg2) : S512.Idx → EReal) (ix1 o) :=
    Cert.KernelIdeal.HostVal.v24_apply m (outsA m) c o
  rw [hs, hbias, Finset.sum_congr rfl fun k _ => term_eq m c b o k]

/-- The second region's array, index by index. -/
theorem out_apply (c : Dev nD) (i : S1024x512.Idx) :
    ((dat1 (F := Ideal) (VB m) c).arrAt 4 cfg1.N : S1024x512.Idx → EReal) i
      = (∑ k : Fin 512, Val1.tabH (VB m) c (ix3 k (i 1) (Cert.Spec.cell (Val1.xqT (VB m) c (ix2 k (i 0)))))) * Val1.scl (VB m) c (ix2 0 0) + Val1.biasR (VB m) c (ix2 0 (i 1)) :=
  congrFun (Val1.out_final (VB m) c (xq_in m c)) i

/-- THE KERNEL PROGRAM'S RESULT is the specification. -/
theorem kernel_is_spec (c : Dev nD) : (dat1 (F := Ideal) (VB m) c).arrAt 4 cfg1.N = spec m c := by
  funext i
  refine (out_apply m c i).trans ?_
  exact entry_eq m c (i 0) (i 1)

end Cert.KernelIdeal.Bridge

end
-- ==== Proof.lean ====
/-
  An 8-bit quantised linear layer whose products are table look-ups.

  Both programs quantise the activations x and the weights w to words xq, wq between -128 and 127 by the same host operations
  (divide by max(max|t| / 127, 1e-8), round to even, clip, convert) and compute, for row b and column o,
      (Σ_k lut[xq(b,k) + 128, wq(o,k) + 128]) · (sx · sw) + bias(o).
  The reference gathers the table's entries at the flat index (xq + 128) · 256 + (wq + 128) and sums them on the host.
  The kernel program does it in two kernel regions: the first builds H(k, o, p) = lut[p, wq(o,k) + 128] as a one-hot matrix of
  the weight words times the transposed table; the second contracts H against the one-hot matrix of the activation words,
  64 positions k at a time over 8 grid steps with the running sum in a scratch buffer, and at the last step multiplies by the
  scale and adds the bias. On the extended reals a one-hot row times a column is the selected entry (0 · x = 0 and 1 · x = x
  for every extended real, so no finiteness is used), sums may be regrouped freely, and the two results are one function.

  The frames: the reference's is its generated run with the result dropped. The kernel program's — at the word level and at the
  ideal level, from one text generic in the float instance — goes through the generated conditional frame of a several-region
  program: each region is a segment entered from the buffers' contents the host lines leave, the first of one control case, the
  second of three (reset and add; add; add and store the result) with the scratch's contents carried in the invariant between
  grid points.
-/
import proofs.«143824_j5239860101336_1_alg».proof.Defs
import proofs.«143824_j5239860101336_1_alg».proof.Proof.Gen.Kernel
import proofs.«143824_j5239860101336_1_alg».proof.Proof.Gen.KernelIdeal
import proofs.«143824_j5239860101336_1_alg».proof.Proof.Gen.ReferenceIdeal
import proofs.«143824_j5239860101336_1_alg».proof.Proof.Gen.ReferenceIdeal.Run
import proofs.«143824_j5239860101336_1_alg».proof.Proof.Gen.ReferenceIdeal.Read
import proofs.«143824_j5239860101336_1_alg».proof.Proof.Gen.Pre_finite_inputs
import proofs.«143824_j5239860101336_1_alg».proof.Proof.K.Run
import proofs.«143824_j5239860101336_1_alg».proof.Proof.KI.RunVal
import proofs.«143824_j5239860101336_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame m ρ
/-- So does the idealized one. -/
theorem frame_ki : Cert.frame_KernelIdeal := fun m ρ _ => Cert.KernelIdeal.Hand.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the ideal instance the kernel program's result array is the specification at the quantised words and scale of its
    arguments, and so is the reference's at arguments that agree. -/
theorem algebraic : Cert.algebraic_KernelIdeal_ReferenceIdeal := by
  intro m ρ m' ρ' _ hagree
  refine ⟨fun c => Cert.KernelIdeal.Bridge.spec m c, ?_, ?_⟩
  · exact (θ_run Cert.KernelIdeal.defs _ _).mono (fun _ h c => ⟨(h c).1.trans (Cert.KernelIdeal.Bridge.kernel_is_spec m c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v43_eq, Cert.ReferenceIdeal.RefValue.ref_is_G,
      (hagree c).1, (hagree c).2.1, (hagree c).2.2.1, (hagree c).2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
